-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S10000x10000 : S_.BroadcastsInDim S10000x10000 (![] : Fin 0 → Fin S10000x10000.rank)
  reducesTo_S10000x10000_S_d0_1 : S10000x10000.ReducesTo [0, 1] S_

variable [Facts]

def fn_part1 {F : FTy → Type} [FloatOps F] (main_arg1 : IVec S10000x10000 32) (main_v13 : IVec S_ 1) (main_v15 : IVec S10000x10000 1) (main_c_5 : IVec S_ 32) : IVec S_ 1 :=
  let main_v16 : IVec S10000x10000 32 := broadcastInDim S10000x10000 ![] bcast_S_S10000x10000 main_c_5
  let main_v17 : IVec S10000x10000 1 := cmpi .eq main_arg1 main_v16
  let main_v18 : IVec S10000x10000 1 := ori main_v15 main_v17
  let main_c_6 : IVec S_ 1 := constantI S_ 1 1#1
  let main_v19 : IVec S_ 1 := (fun x v => Host.reduce IntOp.andi x v reducesTo_S10000x10000_S_d0_1 h_S_) main_v18 main_c_6
  let main_v20 : IVec S_ 1 := andi main_v13 main_v19
  main_v20

def fn {F : FTy → Type} [FloatOps F] (main_arg0 : FVec F S10000x128 .f32) (main_arg1 : IVec S10000x10000 32) (main_arg2 : FVec F S256x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S10000x10000 32 := broadcastInDim S10000x10000 ![] bcast_S_S10000x10000 main_c_4
  let main_v15 : IVec S10000x10000 1 := cmpi .eq main_arg1 main_v14
  let main_c_5 : IVec S_ 32 := constantI S_ 32 1#32
  fn_part1 (F := F) main_arg1 main_v13 main_v15 main_c_5
-- ==== Kernel.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10240x256 : Shape := ⟨2, ![10240, 256]⟩
abbrev S1 : Shape := ⟨1, ![1]⟩
abbrev S2 : Shape := ⟨1, ![2]⟩
abbrev S10000 : Shape := ⟨1, ![10000]⟩
abbrev S1x128 : Shape := ⟨2, ![1, 128]⟩
abbrev S2000x1024 : Shape := ⟨2, ![2000, 1024]⟩
abbrev S1024x256 : Shape := ⟨2, ![1024, 256]⟩
abbrev S2000x128 : Shape := ⟨2, ![2000, 128]⟩
abbrev S2000x256 : Shape := ⟨2, ![2000, 256]⟩
abbrev S2000x1 : Shape := ⟨2, ![2000, 1]⟩
abbrev S128x128 : Shape := ⟨2, ![128, 128]⟩

abbrev nBuf : Space → Nat
  | .hbm => 23
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S256x128, .f32⟩
  | .hbm, ⟨3, _⟩ => ⟨S128, .f32⟩
  | .hbm, ⟨4, _⟩ => ⟨S_, .bf16⟩
  | .hbm, ⟨5, _⟩ => ⟨S10240x256, .bf16⟩
  | .hbm, ⟨6, _⟩ => ⟨S10000x128, .bf16⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S10240x256, .bf16⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S_, .bf16⟩
  | .hbm, ⟨19, _⟩ => ⟨S10000, .bf16⟩
  | .hbm, ⟨20, _⟩ => ⟨S10240x256, .bf16⟩
  | .hbm, ⟨21, _⟩ => ⟨S1x128, .f32⟩
  | .hbm, ⟨22, _⟩ => ⟨S10000x128, .f32⟩
  | .local _ .vmem, ⟨0, _⟩ => ⟨S2000x1024, .i32⟩
  | .local _ .vmem, ⟨1, _⟩ => ⟨S2000x1024, .i32⟩
  | .local _ .vmem, ⟨2, _⟩ => ⟨S1024x256, .bf16⟩
  | .local _ .vmem, ⟨3, _⟩ => ⟨S1024x256, .bf16⟩
  | .local _ .vmem, ⟨4, _⟩ => ⟨S2000x128, .f32⟩
  | .local _ .vmem, ⟨5, _⟩ => ⟨S2000x128, .f32⟩
  | .local _ .vmem, ⟨6, _⟩ => ⟨S256x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![5, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2000x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S10240x256 : S_.BroadcastsInDim S10240x256 (![] : Fin 0 → Fin S10240x256.rank)
  bitsLt_bf16_f32 : FTy.bits .bf16 < FTy.bits .f32
  bcast_S_S1 : S_.BroadcastsInDim S1 (![] : Fin 0 → Fin S1.rank)
  concatenates_S1_S1_S2_d0 : Shape.Concatenates [S1, S1] S2 0
  bcast_S_S10000 : S_.BroadcastsInDim S10000 (![] : Fin 0 → Fin S10000.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1024_S2000x1024_0_0 : ∀ a, (![0, 0] : Fin 2 → Nat) a + S2000x1024.size a ≤ S2000x1024.size a
  h_S2000x1024 : 0 < S2000x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  slices_S2000x256_o0_0_S2000x128 : S2000x256.Slices ![0, 0] S2000x128
  slices_S2000x256_o0_128_S2000x1 : S2000x256.Slices ![0, 128] S2000x1
  broadcasts_S2000x1_S2000x128 : S2000x1.Broadcasts S2000x128
  inb_S256x128_S256x128_0_0 : ∀ a, (![0, 0] : Fin 2 → Nat) a + S256x128.size a ≤ S256x128.size a
  h_S256x128 : 0 < S256x128.numel
  slices_S256x128_o0_0_S128x128 : S256x128.Slices ![0, 0] S128x128
  inb_S2000x128_S2000x128_0_0 : ∀ a, (![0, 0] : Fin 2 → Nat) a + S2000x128.size a ≤ S2000x128.size a
  h_S2000x128 : 0 < S2000x128.numel
  slices_S256x128_o128_0_S128x128 : S256x128.Slices ![128, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S10240x256_S2_S10000x128_01_n_01_0_wf : ScatterDims.WF S10240x256 S2 S10000x128 [0, 1] [] [0, 1] 0
  scatter_S10240x256_S2_S10000_0_1_01_0_wf : ScatterDims.WF S10240x256 S2 S10000 [0] [1] [0, 1] 0
  dot_S2000x1024_S1024x256_S2000x256_1_0_0_1_n_n_wf : DotDims.WF S2000x1024 S1024x256 S2000x256 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x1024.size a < S10000x10000.size a
  hwx0_0 : ∀ i : grid0.Coords, EltTy.bits .i32 = 32 ∨ (Rect.unit (s := S10000x10000) (fun a => cc0_transform_0 i a * S2000x1024.size a) (fun a => (Pipeline.Clip.of (cc0_transform_0 i a) (S2000x1024.size a) (S10000x10000.size a)).extent (S2000x1024.size a)) fun a => Pipeline.Clip.inb (Pipeline.Clip.ok_of (hstart0_0 i a))).WholeWords (EltTy.packing .i32)
  hwxs0_0 : ∀ i : grid0.Coords, EltTy.bits .i32 = 32 ∨ (Rect.unit (s := S2000x1024) (fun _ => 0) (fun a => (Pipeline.Clip.of (cc0_transform_0 i a) (S2000x1024.size a) (S10000x10000.size a)).extent (S2000x1024.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S10240x256.size a
  hwx0_1 : ∀ i : grid0.Coords, EltTy.bits .bf16 = 32 ∨ (Rect.block (s := S10240x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S10000x128.size a
  hwx0_5 : ∀ i : grid0.Coords, EltTy.bits .f32 = 32 ∨ (Rect.block (s := S10000x128) S2000x128.size (cc0_transform_5 i) (hinb0_5 i)).WholeWords (EltTy.packing .f32)

variable [Facts₀]

def scatter_S10240x256_S2_S10000x128_01_n_01_0 : ScatterDims S10240x256 S2 S10000x128 where
  updateWindowDims := [0, 1]
  insertedWindowDims := []
  scatterDimsToOperandDims := [0, 1]
  indexVectorDim := 0
  wf := scatter_S10240x256_S2_S10000x128_01_n_01_0_wf
def scatter_S10240x256_S2_S10000_0_1_01_0 : ScatterDims S10240x256 S2 S10000 where
  updateWindowDims := [0]
  insertedWindowDims := [1]
  scatterDimsToOperandDims := [0, 1]
  indexVectorDim := 0
  wf := scatter_S10240x256_S2_S10000_0_1_01_0_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpecClip (Memref.whole main_arg1) S2000x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v10) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S10000x256 : Shape := ⟨2, ![10000, 256]⟩
abbrev S1x128 : Shape := ⟨2, ![1, 128]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .i32⟩
  | .hbm, ⟨2, _⟩ => ⟨S256x128, .f32⟩
  | .hbm, ⟨3, _⟩ => ⟨S128, .f32⟩
  | .hbm, ⟨4, _⟩ => ⟨S_, .i32⟩
  | .hbm, ⟨5, _⟩ => ⟨S10000x10000, .i32⟩
  | .hbm, ⟨6, _⟩ => ⟨S10000x10000, .i1⟩
  | .hbm, ⟨7, _⟩ => ⟨S10000x10000, .f32⟩
  | .hbm, ⟨8, _⟩ => ⟨S_, .f32⟩
  | .hbm, ⟨9, _⟩ => ⟨S10000, .f32⟩
  | .hbm, ⟨10, _⟩ => ⟨S10000x1, .f32⟩
  | .hbm, ⟨11, _⟩ => ⟨S10000x128, .f32⟩
  | .hbm, ⟨12, _⟩ => ⟨S10000x128, .f32⟩
  | .hbm, ⟨13, _⟩ => ⟨S10000x128, .f32⟩
  | .hbm, ⟨14, _⟩ => ⟨S10000x256, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Spec.lean ====
/-
  The layer's output as one function of the argument arrays, over the extended reals.

  For node `i` and output feature `o`:
    out i o = Σ_{c<128} (nsum i c / deg i) · W[c, o]  +  Σ_{c<128} x[i, c] · W[128 + c, o]  +  b[o],
  where `nsum i c = Σ_k a[i,k] · x[k,c]` is the sum of the neighbours' features, `deg i = Σ_k a[i,k]` the number of
  neighbours, and `a[i,k]` the adjacency word read as a signed integer. The quotient is the extended reals' division
  `Ideal.div`, whatever the degree.
-/
import Idealize.ShloMosaic.Lib.ValueIdx
import Idealize.ShloMosaic.PureOps.Ideal

noncomputable section

open scoped BigOperators

namespace Cert.Sage

open Idealize.ShloMosaic Idealize.ShloMosaic.ValueIdx

/-- The shapes of the four arguments: features, adjacency, weight, bias. -/
abbrev SX : Shape := ⟨2, ![10000, 128]⟩
abbrev SA : Shape := ⟨2, ![10000, 10000]⟩
abbrev SW : Shape := ⟨2, ![256, 128]⟩
abbrev SB : Shape := ⟨1, ![128]⟩

/-- An adjacency word read as a signed integer, as an extended real. -/
def aR (adj : IVec SA 32) (i k : Fin 10000) : EReal := (((adj (ix2 i k)).toInt : ℝ) : EReal)

/-- The sum of the features `c` of node `i`'s neighbours. -/
def nsum (x : FVec Ideal SX .f32) (adj : IVec SA 32) (i : Fin 10000) (c : Fin 128) : EReal :=
  ∑ k : Fin 10000, aR adj i k * x (ix2 k c)

/-- Node `i`'s number of neighbours. -/
def deg (adj : IVec SA 32) (i : Fin 10000) : EReal := ∑ k : Fin 10000, aR adj i k

/-- Row `c` of the weight's upper half (the rows that meet the neighbour mean), -/
def lo (c : Fin 128) : Fin 256 := ⟨c.val, by omega⟩
/-- and row `c` of its lower half (the rows that meet the node's own features). -/
def hi (c : Fin 128) : Fin 256 := ⟨128 + c.val, by omega⟩

/-- The layer's output at node `i`, feature `o`. -/
def Gio (x : FVec Ideal SX .f32) (adj : IVec SA 32) (W : FVec Ideal SW .f32) (b : FVec Ideal SB .f32)
    (i : Fin 10000) (o : Fin 128) : EReal :=
  ((∑ c : Fin 128, Ideal.div (nsum x adj i c) (deg adj i) * W (ix2 (lo c) o))
    + ∑ c : Fin 128, x (ix2 i c) * W (ix2 (hi c) o)) + b (ix1 o)

/-- The layer's output, as an array. -/
def G (x : FVec Ideal SX .f32) (adj : IVec SA 32) (W : FVec Ideal SW .f32) (b : FVec Ideal SB .f32) :
    FVec Ideal SX .f32 := fun j => Gio x adj W b (j 0) (j 1)

theorem G_apply (x : FVec Ideal SX .f32) (adj : IVec SA 32) (W : FVec Ideal SW .f32) (b : FVec Ideal SB .f32)
    (i : Fin 10000) (o : Fin 128) : G x adj W b (ix2 i o) = Gio x adj W b i o := rfl

end Cert.Sage

end
-- ==== Proof.KernelFrame.lean ====
/-
  The frame of the word-level program: the layer's one pipelined call runs at every grid point whatever its
  staging buffers hold, so the program terminates and leaves its four argument arrays as it found them.

  Nothing is said of what the body computes.  The proof data are relational (each window's relation is the
  one that holds of any two contents): the body is handed every staging buffer and the accumulator at SOME
  contents, loads and stores whole buffers only, and hands every one of them back at some contents.  That an
  input array ends as it began then follows from the pipeline never writing an input array back.
-/
import proofs.«109863_g78357383349035_cont_sun_c4_208_7_alg».proof.Proof.Gen.Kernel.Frame
import proofs.«109863_g78357383349035_cont_sun_c4_208_7_alg».proof.Proof.Gen.Kernel.Skeleton

set_option maxRecDepth 16384

noncomputable section

namespace Cert.Sage.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two branch conditions -/

/-- The first `scf.if`'s condition: the reduction coordinate is zero (there the accumulator is cleared). -/
abbrev cond0 (i : grid0.Coords) : Prop :=
  (Scalar.cmpi .ne (Scalar.extui (Scalar.cmpi .eq (BitVec.ofNat 32 (i 1).val) 0#32)) 0#32) = 1#1
/-- The second `scf.if`'s condition: the reduction coordinate is the last (there the output block is stored). -/
abbrev cond1 (i : grid0.Coords) : Prop := k0_cond2 i = 1#1

/-! ## The body on any whole memrefs at any contents

At any grid point and on any whole memrefs, each owned at SOME contents, the body runs to the continuation
holding each of them at some contents: every load and store is of a whole buffer at offsets zero, so a load
needs only that the buffer is owned and a store only replaces what it holds.  One run per way the two
`scf.if`s can go; the pair of conditions is a hypothesis, so no arithmetic on the grid is needed. -/
/-- The accumulator cleared, no output stored. -/
theorem runA (c : Dev nD) (i : grid0.Coords)
    (arg2 : Memref sig .tc .vmem S2000x1024 .i32) (harg2 : arg2.IsWhole)
    (arg3 : Memref sig .tc .vmem S1024x256 .bf16) (harg3 : arg3.IsWhole)
    (arg4 : Memref sig .tc .vmem S2000x128 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x256 .f32) (harg8 : arg8.IsWhole)
    (hc0 : cond0 i) (hc1 : ¬cond1 i)
    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E
          (cc0__lambda_ i arg2 harg2 arg3 harg3 arg4 harg4 arg5 harg5 arg6 harg6 arg7 harg7 arg8 harg8) K := by
  simp only [cc0__lambda__eq_skeleton]; unfold cc0__lambda__skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-- Neither branch taken: one more slab accumulated. -/
theorem runB (c : Dev nD) (i : grid0.Coords)
    (arg2 : Memref sig .tc .vmem S2000x1024 .i32) (harg2 : arg2.IsWhole)
    (arg3 : Memref sig .tc .vmem S1024x256 .bf16) (harg3 : arg3.IsWhole)
    (arg4 : Memref sig .tc .vmem S2000x128 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x256 .f32) (harg8 : arg8.IsWhole)
    (hc0 : ¬cond0 i) (hc1 : ¬cond1 i)
    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E
          (cc0__lambda_ i arg2 harg2 arg3 harg3 arg4 harg4 arg5 harg5 arg6 harg6 arg7 harg7 arg8 harg8) K := by
  simp only [cc0__lambda__eq_skeleton]; unfold cc0__lambda__skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-- The last slab accumulated, then the output block stored. -/
theorem runC (c : Dev nD) (i : grid0.Coords)
    (arg2 : Memref sig .tc .vmem S2000x1024 .i32) (harg2 : arg2.IsWhole)
    (arg3 : Memref sig .tc .vmem S1024x256 .bf16) (harg3 : arg3.IsWhole)
    (arg4 : Memref sig .tc .vmem S2000x128 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x256 .f32) (harg8 : arg8.IsWhole)
    (hc0 : ¬cond0 i) (hc1 : cond1 i)
    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E
          (cc0__lambda_ i arg2 harg2 arg3 harg3 arg4 harg4 arg5 harg5 arg6 harg6 arg7 harg7 arg8 harg8) K := by
  simp only [cc0__lambda__eq_skeleton]; unfold cc0__lambda__skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-- Both branches taken (no point of this grid is such; the run does not care). -/
theorem runD (c : Dev nD) (i : grid0.Coords)
    (arg2 : Memref sig .tc .vmem S2000x1024 .i32) (harg2 : arg2.IsWhole)
    (arg3 : Memref sig .tc .vmem S1024x256 .bf16) (harg3 : arg3.IsWhole)
    (arg4 : Memref sig .tc .vmem S2000x128 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x256 .f32) (harg8 : arg8.IsWhole)
    (hc0 : cond0 i) (hc1 : cond1 i)
    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E
          (cc0__lambda_ i arg2 harg2 arg3 harg3 arg4 harg4 arg5 harg5 arg6 harg6 arg7 harg7 arg8 harg8) K := by
  simp only [cc0__lambda__eq_skeleton]; unfold cc0__lambda__skel
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec (disch := first | exact hc0 | exact hc1)
  sl_step
  iapply Hk
  isplitl [H2]
  · iexists _, _; isplitr
    swap; · iexact H2
    ipureintro; rfl
  isplitl [H3]
  · iexists _, _; isplitr
    swap; · iexact H3
    ipureintro; rfl
  isplitl [H4]
  · iexists _, _; isplitr
    swap; · iexact H4
    ipureintro; rfl
  isplitl [H5]
  · iexists _, _; isplitr
    swap; · iexact H5
    ipureintro; rfl
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-- The body at any grid point, whichever way its branches go. -/
theorem kernelRun (c : Dev nD) (i : grid0.Coords)
    (arg2 : Memref sig .tc .vmem S2000x1024 .i32) (harg2 : arg2.IsWhole)
    (arg3 : Memref sig .tc .vmem S1024x256 .bf16) (harg3 : arg3.IsWhole)
    (arg4 : Memref sig .tc .vmem S2000x128 .f32) (harg4 : arg4.IsWhole)
    (arg5 : Memref sig .tc .vmem S256x128 .f32) (harg5 : arg5.IsWhole)
    (arg6 : Memref sig .tc .vmem S1x128 .f32) (harg6 : arg6.IsWhole)
    (arg7 : Memref sig .tc .vmem S2000x128 .f32) (harg7 : arg7.IsWhole)
    (arg8 : Memref sig .tc .vmem S2000x256 .f32) (harg8 : arg8.IsWhole)

    (E : Set ℕ) (K : PUnit → sProp 𝕄) :
    iprop((∃ d, owns (c : Thread nD τ) arg2 fullShare d) ∗ (∃ d, owns (c : Thread nD τ) arg3 fullShare d)
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (∃ d, owns (c : Thread nD τ) arg8 fullShare d)
        ∗ (iprop((∃ d, owns (c : Thread nD τ) arg2 fullShare d) ∗ (∃ d, owns (c : Thread nD τ) arg3 fullShare d)
            ∗ (∃ d, owns (c : Thread nD τ) arg4 fullShare d) ∗ (∃ d, owns (c : Thread nD τ) arg5 fullShare d)
            ∗ (∃ d, owns (c : Thread nD τ) arg6 fullShare d) ∗ (∃ d, owns (c : Thread nD τ) arg7 fullShare d)
            ∗ (∃ d, owns (c : Thread nD τ) arg8 fullShare d)) -∗ K ⟨⟩))
      ⊢ wp frame (wpE (defs₀ (F := F)) Variants.none c none) E
          (cc0__lambda_ i arg2 harg2 arg3 harg3 arg4 harg4 arg5 harg5 arg6 harg6 arg7 harg7 arg8 harg8) K := by
  by_cases hc0 : cond0 i
  · by_cases hc1 : cond1 i
    · exact runD c i arg2 harg2 arg3 harg3 arg4 harg4 arg5 harg5 arg6 harg6 arg7 harg7 arg8 harg8 hc0 hc1 E K
    · exact runA c i arg2 harg2 arg3 harg3 arg4 harg4 arg5 harg5 arg6 harg6 arg7 harg7 arg8 harg8 hc0 hc1 E K
  · by_cases hc1 : cond1 i
    · exact runC c i arg2 harg2 arg3 harg3 arg4 harg4 arg5 harg5 arg6 harg6 arg7 harg7 arg8 harg8 hc0 hc1 E K
    · exact runB c i arg2 harg2 arg3 harg3 arg4 harg4 arg5 harg5 arg6 harg6 arg7 harg7 arg8 harg8 hc0 hc1 E K

/-! ## The accumulator and the class invariant -/

/-- The accumulator: a whole scoped buffer of the kernel's own, passed beside the windows. -/
abbrev scM : Memref sig .tc .vmem S2000x256 .f32 := Memref.whole cc0_scratch0

/-- The region invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The proof data -/

/-- The relational proof data on core `c`: the arrays as the region finds them; of what the body leaves in any
    staging buffer, nothing (the relation that holds of any two contents); the invariant the class's at every
    point (the accumulator at some contents: the body stores it whole where the reduction starts, before any
    value of it matters to an argument array); nothing owed; full shares. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem share_eq (c : Dev nD) (w : Fin cfg0.W) : (rdats m c).share w = fullShare := by
  unfold RDat.share; split <;> rfl

/-! ## The body obligation -/

/-- Each window's current staging memref at point `t`, spelled as the pipeline passes it to the body. -/
abbrev ms0 (t : Fin cfg0.N) : Memref sig .tc .vmem S2000x1024 .i32 := win0_0.stage (cfg0.slots t 0)
abbrev ms1 (t : Fin cfg0.N) : Memref sig .tc .vmem S1024x256 .bf16 := win0_1.stage (cfg0.slots t 1)
abbrev ms2 (t : Fin cfg0.N) : Memref sig .tc .vmem S2000x128 .f32 := win0_2.stage (cfg0.slots t 2)
abbrev ms3 (t : Fin cfg0.N) : Memref sig .tc .vmem S256x128 .f32 := win0_3.stage (cfg0.slots t 3)
abbrev ms4 (t : Fin cfg0.N) : Memref sig .tc .vmem S1x128 .f32 := win0_4.stage (cfg0.slots t 4)
abbrev ms5 (t : Fin cfg0.N) : Memref sig .tc .vmem S2000x128 .f32 := win0_5.stage (cfg0.slots t 5)

/-- What the body is called with at point `t`, the windows one by one: each current buffer at the contents `Y w`
    the pipeline hands it, -/
def bodyPre (c : Dev nD) (t : Fin cfg0.N) (Y : (w : Fin cfg0.W) → (cfg0.win w).block.Idx → Elt F (cfg0.win w).elt) : sProp 𝕄 :=
  iprop((rdats m c).Φ t.castSucc ∗ (rdats m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5))

/-- and what it returns: each at some contents in the (empty) relation to what it was handed. -/
def bodyPost (c : Dev nD) (t : Fin cfg0.N) (Y : (w : Fin cfg0.W) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (ms0 t) fullShare X)
    ∗ (∃ X, ⌜(rdats m c).after 1 t (Y 1) X⌝ ∗ owns (c : Thread nD τ) (ms1 t) fullShare X)
    ∗ (∃ X, ⌜(rdats m c).after 2 t (Y 2) X⌝ ∗ owns (c : Thread nD τ) (ms2 t) fullShare X)
    ∗ (∃ X, ⌜(rdats m c).after 3 t (Y 3) X⌝ ∗ owns (c : Thread nD τ) (ms3 t) fullShare X)
    ∗ (∃ X, ⌜(rdats m c).after 4 t (Y 4) X⌝ ∗ owns (c : Thread nD τ) (ms4 t) fullShare X)
    ∗ (∃ X, ⌜(rdats m c).after 5 t (Y 5) X⌝ ∗ owns (c : Thread nD τ) (ms5 t) fullShare X))

/-- The body at any point: the invariant hands it the accumulator at some contents and takes it back so; the core
    owes nothing throughout; every staging buffer goes in at what it holds and comes back at something. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).owesAt () t.succ = (rdats m c).owesAt () t.castSucc from rfl]
  rw [show (rdats m c).Φ t.succ = Pipeline.ΦA spec0 c from rfl, show (rdats m c).Φ t.castSucc = Pipeline.ΦA spec0 c from rfl, PhiA_eq]
  iintro ⟨⟨HS, Hg⟩, Ho, H0, H1, H2, H3, H4, H5⟩
  iapply (kernelRun c (grid0.coords t) _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [HS]; · iexact HS
  iintro ⟨⟨%e0, H0⟩, ⟨%e1, H1⟩, ⟨%e2, H2⟩, ⟨%e3, H3⟩, ⟨%e4, H4⟩, ⟨%e5, H5⟩, HS⟩
  isplitl [HS Hg]
  · isplitl [HS]; · iexact HS
    iexact Hg
  isplitl [Ho]; · iexact Ho
  isplitl [H0]
  · iexists e0; isplitr; · ipureintro; trivial
    iexact H0
  isplitl [H1]
  · iexists e1; isplitr; · ipureintro; trivial
    iexact H1
  isplitl [H2]
  · iexists e2; isplitr; · ipureintro; trivial
    iexact H2
  isplitl [H3]
  · iexists e3; isplitr; · ipureintro; trivial
    iexact H3
  isplitl [H4]
  · iexists e4; isplitr; · ipureintro; trivial
    iexact H4
  iexists e5; isplitr; · ipureintro; trivial
  iexact H5

/-- The library's body obligation, at every point: nothing of what the buffers may hold is used. -/
theorem body_obligation (c : Dev nD) : (rdats (F := F) m c).BodyObligation (defs₀ (F := F)) Variants.none () Set.univ := fun t Y _ => by
  rw [bigSep_W0, bigSep_W0]
  exact sound_body m c t Y

/-! ## The run and the frame -/

set_option backward.isDefEq.respectTransparency.types false in
/-- At the compiled mesh, for any values, from any memory with zero counters: every weakly fair execution of @main
    on the TensorCores terminates, and in every final state each array of the pipeline holds contents it may hold
    after the write-backs (an input array: its contents at the region's entry) and every other unscoped buffer
    what it held at the region's entry. -/
theorem run_main : θ_run defs (onTc (τ := τ) (main (F := F))) (s₀ m ρ) (Pipeline.RDat.FramePost cfg0 (rdats m) (V m)) :=
  Pipeline.RDat.θ_run_frame cfgs (0 : Fin 1) launch0 defs₀ Variants.none (rdats m) m ρ main
    (hbody := body_obligation m) (hshare := share_eq m) (howed := fun _ _ => rfl) (V := V m)
    (hmain := hmain m Variants.none) (hA := fun _ _ => rfl) (hΦ := fun _ _ => rfl)

/-- THE FRAME: the program runs and its four argument arrays end as they began.  The features, the adjacency and
    the weight are staged by input windows (2, 0 and 3), which the pipeline never writes back; the bias is staged
    only through its reshaped copy, so its own buffer bypasses the region; and no host operation before the region
    writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun ((rdats m c).ArrAt_in 2 rfl _) _) ((h c).1 2)).trans (V_main_arg0 m c),
     (Eq.mp (congrFun ((rdats m c).ArrAt_in 0 rfl _) _) ((h c).1 0)).trans (V_main_arg1 m c),
     (Eq.mp (congrFun ((rdats m c).ArrAt_in 3 rfl _) _) ((h c).1 3)).trans (V_main_arg2 m c),
     ((h c).2 main_arg3 (Pipeline.mem_restRefs_of main_arg3 (by decide) (by decide))).trans (V_main_arg3 m c)⟩) (run_main m ρ)

end Cert.Sage.KernelFrame

end
-- ==== Proof.Runs.lean ====
/-
  What the three control cases of the layer's kernel body share.

  The body branches twice on the grid's second coordinate `k` (the slab of adjacency columns): at `k = 0` it first
  clears the accumulator, at every `k` it adds the slab's product to the accumulator, and at `k = 9` it then divides the
  neighbour sums by the degree column, multiplies by the weight's two halves and stores the output block. Over the
  fifty grid points (five row blocks of ten slabs) the two conditions are `t % 10 = 0` and `t % 10 = 9`; the output
  window is idle, and not written back, exactly where the second fails.
-/
import proofs.«109863_g78357383349035_cont_sun_c4_208_7_alg».proof.Proof.Gen.KernelIdeal.Launch
import proofs.«109863_g78357383349035_cont_sun_c4_208_7_alg».proof.Proof.Gen.KernelIdeal.Skeleton
import proofs.«109863_g78357383349035_cont_sun_c4_208_7_alg».proof.Proof.Gen.KernelIdeal.Points
import proofs.«109863_g78357383349035_cont_sun_c4_208_7_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The two branch conditions, decided over the grid -/

/-- "This is the first slab": the condition of the accumulator's reset, as the body computes it from the grid coordinates. -/
abbrev condFirst (i : grid0.Coords) : Prop :=
  (Scalar.cmpi .ne (Scalar.extui (Scalar.cmpi .eq (BitVec.ofNat 32 (i 1).val) 0#32)) 0#32) = 1#1
/-- It holds at the points whose slab is 0. -/
theorem hcondFirst : ∀ t : Fin cfg0.N, condFirst (grid0.coords t) ↔ t.val % 10 = 0 :=
  (by decide +kernel : ∀ t : Fin grid0.N, condFirst (grid0.coords t) ↔ t.val % 10 = 0)

/-- "This is the last slab": the condition of the epilogue. -/
abbrev condLast (i : grid0.Coords) : Prop := k0_cond2 i = 1#1
/-- It holds at the points whose slab is 9. -/
theorem hcondLast : ∀ t : Fin cfg0.N, condLast (grid0.coords t) ↔ t.val % 10 = 9 :=
  (by decide +kernel : ∀ t : Fin grid0.N, condLast (grid0.coords t) ↔ t.val % 10 = 9)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
/-- Off the last slab the output window is idle and not written back; -/
theorem idleAt_5 : ∀ t : Fin cfg0.N, ¬condLast (grid0.coords t) → cfg0.idle 5 (grid0.coords t) = true := by decide +kernel
theorem noFlush_5 : ∀ t : Fin cfg0.N, ¬condLast (grid0.coords t) → (cfg0.win 5).flush t = false := by decide +kernel
/-- on the last slab it is live. -/
theorem liveAt_5 : ∀ t : Fin cfg0.N, condLast (grid0.coords t) → cfg0.idle 5 (grid0.coords t) = false := by decide +kernel

/-! ## The staging memrefs at a point, and the scratch -/

abbrev ms_0 (t : Fin cfg0.N) : Memref sig .tc .vmem S2000x1024 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x256 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2000x128 .f32 := win0_5.stage (cfg0.slots t 5)
abbrev hs_5 (t : Fin cfg0.N) : (ms_5 t).IsWhole := hstage0_5 ((cfg0.slots t 5).cast nbuf0_5)
/-- The accumulator: a whole scoped buffer of the kernel's own. -/
abbrev scM : Memref sig .tc .vmem S2000x256 .f32 := Memref.whole cc0_scratch0
/-- One view each through which the accumulator's and the output buffer's contents are stated. -/
abbrev VS : View sig .tc .vmem S2000x256 .f32 := scM.view
abbrev VO : View sig .tc .vmem S2000x128 .f32 := (Memref.whole cc0_stg5_0 : Memref sig .tc .vmem S2000x128 .f32).view

/-- The region's class invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Sage

end
-- ==== Proof.RunA.lean ====
/-
  The kernel body at a point of the FIRST slab (`k = 0`): the accumulator is cleared, the slab's product added, no
  epilogue. On whole staging memrefs holding `x0 … x4` (adjacency slab, augmented features slab, own features,
  weight, bias), the output's buffer at contents `xi5` handed back untouched, and the accumulator at anything, the
  body runs and leaves the inputs as they were and the accumulator with the pieces `LS` written — the pieces are
  what the symbolic run of the body's stores finds.
-/
import proofs.«109863_g78357383349035_cont_sun_c4_208_7_alg».proof.Proof.Runs

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : condFirst i) (hc1 : ¬condLast i)
    (x0 : Vec F S2000x1024 .i32) (x1 : Vec F S1024x256 .bf16) (x2 : Vec F S2000x128 .f32) (x3 : Vec F S256x128 .f32) (x4 : Vec F S1x128 .f32) :
    { LS : List (View.Piece (Elt F) S2000x256 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Sage

end
-- ==== Proof.RunB.lean ====
/-
  The kernel body at a point of a MIDDLE slab (`0 < k < 9`): no reset, the slab's product added to the accumulator
  as the point before left it (`xs`), no epilogue; the output's buffer is handed back untouched.
-/
import proofs.«109863_g78357383349035_cont_sun_c4_208_7_alg».proof.Proof.Runs

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : ¬condLast i)
    (x0 : Vec F S2000x1024 .i32) (x1 : Vec F S1024x256 .bf16) (x2 : Vec F S2000x128 .f32) (x3 : Vec F S256x128 .f32) (x4 : Vec F S1x128 .f32) (xs : Vec F S2000x256 .f32) :
    { LS : List (View.Piece (Elt F) S2000x256 .f32) //
      ∀ (xi5 : Vec F S2000x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, fun xi5 E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Sage

end
-- ==== Proof.RunC.lean ====
/-
  The kernel body at a point of the LAST slab (`k = 9`): no reset, the slab's product added to the accumulator as the
  point before left it (`xs`), then the epilogue: the output's buffer, found at anything, is stored whole (pieces `L5`).
-/
import proofs.«109863_g78357383349035_cont_sun_c4_208_7_alg».proof.Proof.Runs

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i)
    (x0 : Vec F S2000x1024 .i32) (x1 : Vec F S1024x256 .bf16) (x2 : Vec F S2000x128 .f32) (x3 : Vec F S256x128 .f32) (x4 : Vec F S1x128 .f32) (xs : Vec F S2000x256 .f32) :
    Σ' (L5 : List (View.Piece (Elt F) S2000x128 .f32)), { LS : List (View.Piece (Elt F) S2000x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc0__lambda_ i arg2 harg2 arg3 harg3 arg4 harg4 arg5 harg5 arg6 harg6 arg7 harg7 arg8 harg8) K } := by
  refine ⟨?_, ?_, fun E K => ?run⟩
  case run =>
    simp only [cc0__lambda__eq_skeleton]; unfold cc0__lambda__skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Sage

end
-- ==== Proof.Pieces.lean ====
/-
  The idealized kernel's run with every buffer's contents named.

  Over the extended reals the accumulator after the point `t` of slab `k` is the point's payload of the adjacency
  slab, the accumulator the point before left (zero at `k = 0`) and the slab of augmented features; the output block
  written back at `k = 9` is the epilogue's payload of that accumulator, the weight, the row block's own features and
  the bias. The adjacency slab's staging buffer is only known on the part the (possibly cut) transfer fills; what lies
  past the array's last column is multiplied by rows of the augmented features that are zero, so the accumulator does
  not depend on it.
-/
import proofs.«109863_g78357383349035_cont_sun_c4_208_7_alg».proof.Proof.RunA
import proofs.«109863_g78357383349035_cont_sun_c4_208_7_alg».proof.Proof.RunB
import proofs.«109863_g78357383349035_cont_sun_c4_208_7_alg».proof.Proof.RunC
import proofs.«109863_g78357383349035_cont_sun_c4_208_7_alg».proof.Proof.Spec
import Idealize.ShloMosaic.Lib.Pipeline.Value

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## What each case's stores leave, as the payloads -/

section Pieces

variable {F : FTy → Type} [FloatOps F]

theorem scoverA (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : condFirst i) (hc1 : ¬condLast i) (x0 : Vec F S2000x1024 .i32) (x1 : Vec F S1024x256 .bf16) (x2 : Vec F S2000x128 .f32) (x3 : Vec F S256x128 .f32) (x4 : Vec F S1x128 .f32) (y : S2000x256.Idx) :
    ∃ pc ∈ (kernelRunA c i arg2 harg2 arg3 harg3 arg4 harg4 arg5 harg5 arg6 harg6 arg7 harg7 arg8 harg8 hc0 hc1 x0 x1 x2 x3 x4).1, y ∈ pc.1.set :=
  View.cover_of_tiledL _ S2000x256.size (by sl_kernel_rfl) y

theorem scoverB (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : ¬condLast i) (x0 : Vec F S2000x1024 .i32) (x1 : Vec F S1024x256 .bf16) (x2 : Vec F S2000x128 .f32) (x3 : Vec F S256x128 .f32) (x4 : Vec F S1x128 .f32) (xs : Vec F S2000x256 .f32) (y : S2000x256.Idx) :
    ∃ pc ∈ (kernelRunB c i arg2 harg2 arg3 harg3 arg4 harg4 arg5 harg5 arg6 harg6 arg7 harg7 arg8 harg8 hc0 hc1 x0 x1 x2 x3 x4 xs).1, y ∈ pc.1.set :=
  View.cover_of_tiledL _ S2000x256.size (by sl_kernel_rfl) y

theorem scoverC (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) (y : S2000x256.Idx) :
    ∃ pc ∈ (kernelRunC c i arg2 harg2 arg3 harg3 arg4 harg4 arg5 harg5 arg6 harg6 arg7 harg7 arg8 harg8 hc0 hc1 x0 x1 x2 x3 x4 xs).2.1, y ∈ pc.1.set :=
  View.cover_of_tiledL _ S2000x256.size (by sl_kernel_rfl) y

theorem coverC (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) (y : S2000x128.Idx) :
    ∃ pc ∈ (kernelRunC c i arg2 harg2 arg3 harg3 arg4 harg4 arg5 harg5 arg6 harg6 arg7 harg7 arg8 harg8 hc0 hc1 x0 x1 x2 x3 x4 xs).1, y ∈ pc.1.set :=
  View.cover_of_tiledL _ S2000x128.size (by sl_kernel_rfl) y

/-- Zero offsets, as the run's rectangles spell them. -/
theorem hz : (![0, 0] : Fin 2 → Nat) = fun _ => 0 := funext fun a => by fin_cases a <;> rfl

/-- What the first slab's point leaves in the accumulator, whatever it held. -/
def soutA (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : condFirst i) (hc1 : ¬condLast i) (x0 : Vec F S2000x1024 .i32) (x1 : Vec F S1024x256 .bf16) (x2 : Vec F S2000x128 .f32) (x3 : Vec F S256x128 .f32) (x4 : Vec F S1x128 .f32) : Vec F S2000x256 .f32 :=
  VS.read (Elt F) (VS.writes (Elt F) VS.junk (kernelRunA c i arg2 harg2 arg3 harg3 arg4 harg4 arg5 harg5 arg6 harg6 arg7 harg7 arg8 harg8 hc0 hc1 x0 x1 x2 x3 x4).1)

/-- It is the slab's payload over the zero block: the reset's store covers the accumulator, the load after it reads the
    zero block back, and the last store — covering again — leaves its payload. -/
theorem soutA_eq (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : condFirst i) (hc1 : ¬condLast i) (x0 : Vec F S2000x1024 .i32) (x1 : Vec F S1024x256 .bf16) (x2 : Vec F S2000x128 .f32) (x3 : Vec F S256x128 .f32) (x4 : Vec F S1x128 .f32) :
    soutA c i arg2 harg2 arg3 harg3 arg4 harg4 arg5 harg5 arg6 harg6 arg7 harg7 arg8 harg8 hc0 hc1 x0 x1 x2 x3 x4 = k0_pay2 x0 (k0_pay1 (F := F)) x1 := by
  unfold soutA
  rw [View.read_writes_eq_canon _ _ _ (scoverA c i arg2 harg2 arg3 harg3 arg4 harg4 arg5 harg5 arg6 harg6 arg7 harg7 arg8 harg8 hc0 hc1 x0 x1 x2 x3 x4)]
  unfold kernelRunA; dsimp only
  sl_unfold_words
  rw [View.canon_cons_unit_zero (S := S2000x256) hz, View.readCov_unit_zero (S := S2000x256) _ hz]
  simp only [View.readAt_eq_ld, harg2.read_unread, harg3.read_unread, View.ld_unit_zero (S := S2000x1024) hz,
    View.ld_unit_zero (S := S1024x256) hz]

/-- What a middle slab's point leaves in the accumulator that held `xs`. -/
def soutB (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : ¬condLast i) (x0 : Vec F S2000x1024 .i32) (x1 : Vec F S1024x256 .bf16) (x2 : Vec F S2000x128 .f32) (x3 : Vec F S256x128 .f32) (x4 : Vec F S1x128 .f32) (xs : Vec F S2000x256 .f32) : Vec F S2000x256 .f32 :=
  VS.read (Elt F) (VS.writes (Elt F) VS.junk (kernelRunB c i arg2 harg2 arg3 harg3 arg4 harg4 arg5 harg5 arg6 harg6 arg7 harg7 arg8 harg8 hc0 hc1 x0 x1 x2 x3 x4 xs).1)

/-- It is the slab's payload of the adjacency slab, the accumulator as found and the augmented features: the one
    covering store's payload, whose loads read whole buffers. -/
theorem soutB_eq (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : ¬condLast i) (x0 : Vec F S2000x1024 .i32) (x1 : Vec F S1024x256 .bf16) (x2 : Vec F S2000x128 .f32) (x3 : Vec F S256x128 .f32) (x4 : Vec F S1x128 .f32) (xs : Vec F S2000x256 .f32) :
    soutB c i arg2 harg2 arg3 harg3 arg4 harg4 arg5 harg5 arg6 harg6 arg7 harg7 arg8 harg8 hc0 hc1 x0 x1 x2 x3 x4 xs = k0_pay2 x0 xs x1 := by
  unfold soutB
  rw [View.read_writes_eq_canon _ _ _ (scoverB c i arg2 harg2 arg3 harg3 arg4 harg4 arg5 harg5 arg6 harg6 arg7 harg7 arg8 harg8 hc0 hc1 x0 x1 x2 x3 x4 xs)]
  unfold kernelRunB; dsimp only
  first | sl_unfold_words | skip
  rw [View.canon_cons_unit_zero (S := S2000x256) hz]
  simp only [View.readAt_eq_ld, harg2.read_unread, harg3.read_unread, harg8.read_unread,
    View.ld_unit_zero (S := S2000x1024) hz, View.ld_unit_zero (S := S1024x256) hz, View.ld_unit_zero (S := S2000x256) hz]

/-- What the last slab's point leaves in the accumulator that held `xs`. -/
def soutC (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) : Vec F S2000x256 .f32 :=
  VS.read (Elt F) (VS.writes (Elt F) VS.junk (kernelRunC c i arg2 harg2 arg3 harg3 arg4 harg4 arg5 harg5 arg6 harg6 arg7 harg7 arg8 harg8 hc0 hc1 x0 x1 x2 x3 x4 xs).2.1)

/-- The same payload as at a middle slab: the epilogue only reads the accumulator. -/
theorem soutC_eq (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) :
    soutC c i arg2 harg2 arg3 harg3 arg4 harg4 arg5 harg5 arg6 harg6 arg7 harg7 arg8 harg8 hc0 hc1 x0 x1 x2 x3 x4 xs = k0_pay2 x0 xs x1 := by
  unfold soutC
  rw [View.read_writes_eq_canon _ _ _ (scoverC c i arg2 harg2 arg3 harg3 arg4 harg4 arg5 harg5 arg6 harg6 arg7 harg7 arg8 harg8 hc0 hc1 x0 x1 x2 x3 x4 xs)]
  unfold kernelRunC; dsimp only
  first | sl_unfold_words | skip
  rw [View.canon_cons_unit_zero (S := S2000x256) hz]
  simp only [View.readAt_eq_ld, harg2.read_unread, harg3.read_unread, harg8.read_unread,
    View.ld_unit_zero (S := S2000x1024) hz, View.ld_unit_zero (S := S1024x256) hz, View.ld_unit_zero (S := S2000x256) hz]

/-- What the last slab's point leaves in the output's staging buffer, whatever it held. -/
def outC (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) : Vec F S2000x128 .f32 :=
  VO.read (Elt F) (VO.writes (Elt F) VO.junk (kernelRunC c i arg2 harg2 arg3 harg3 arg4 harg4 arg5 harg5 arg6 harg6 arg7 harg7 arg8 harg8 hc0 hc1 x0 x1 x2 x3 x4 xs).1)

/-- It is the epilogue's payload of the accumulator just updated (read back through the covering store), the weight, the
    row block's own features and the bias. -/
theorem outC_eq (c : Dev nD) (i : grid0.Coords) (arg2 : Memref sig .tc .vmem S2000x1024 .i32) (harg2 : arg2.IsWhole) (arg3 : Memref sig .tc .vmem S1024x256 .bf16) (harg3 : arg3.IsWhole) (arg4 : Memref sig .tc .vmem S2000x128 .f32) (harg4 : arg4.IsWhole) (arg5 : Memref sig .tc .vmem S256x128 .f32) (harg5 : arg5.IsWhole) (arg6 : Memref sig .tc .vmem S1x128 .f32) (harg6 : arg6.IsWhole) (arg7 : Memref sig .tc .vmem S2000x128 .f32) (harg7 : arg7.IsWhole) (arg8 : Memref sig .tc .vmem S2000x256 .f32) (harg8 : arg8.IsWhole) (hc0 : ¬condFirst i) (hc1 : condLast i) (x0 : Vec F S2000x1024 .i32) (x1 : Vec F S1024x256 .bf16) (x2 : Vec F S2000x128 .f32) (x3 : Vec F S256x128 .f32) (x4 : Vec F S1x128 .f32) (xs : Vec F S2000x256 .f32) :
    outC c i arg2 harg2 arg3 harg3 arg4 harg4 arg5 harg5 arg6 harg6 arg7 harg7 arg8 harg8 hc0 hc1 x0 x1 x2 x3 x4 xs = k0_pay3 (k0_pay2 x0 xs x1) x3 x2 x4 := by
  unfold outC
  rw [View.read_writes_eq_canon _ _ _ (coverC c i arg2 harg2 arg3 harg3 arg4 harg4 arg5 harg5 arg6 harg6 arg7 harg7 arg8 harg8 hc0 hc1 x0 x1 x2 x3 x4 xs)]
  unfold kernelRunC; dsimp only
  sl_unfold_words
  rw [View.canon_unit_zero (S := S2000x128) hz, View.readCov_unit_zero (S := S2000x256) _ hz]
  simp only [View.readAt_eq_ld, harg2.read_unread, harg3.read_unread, harg4.read_unread, harg5.read_unread,
    harg6.read_unread, harg8.read_unread, View.ld_unit_zero (S := S2000x1024) hz, View.ld_unit_zero (S := S1024x256) hz,
    View.ld_unit_zero (S := S2000x256) hz, View.ld_unit_zero (S := S256x128) hz, View.ld_unit_zero (S := S2000x128) hz,
    View.ld_unit_zero (S := S1x128) hz]

end Pieces

end Cert.KernelIdeal.Sage

end
-- ==== Proof.AccDefs.lean ====
/-
  The accumulator point by point, and the output block, as functions of the region-entry arrays.

  At the point `t` (row block `t / 10`, slab `t % 10`) the kernel adds to its accumulator the product of the adjacency
  slab — read as integers — with the slab of augmented features; the accumulator is cleared at slab 0, and at slab 9 the
  epilogue turns it into the output block.
-/
import proofs.«109863_g78357383349035_cont_sun_c4_208_7_alg».proof.Proof.Gen.KernelIdeal.Skeleton
import proofs.«109863_g78357383349035_cont_sun_c4_208_7_alg».proof.Proof.Gen.KernelIdeal.Frame
import Idealize.ShloMosaic.PureOps.Ideal

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)
/-- The adjacency slab at point `t` as a whole block: the array's words on the part inside the array, the zero word past
    its last column. -/
def adjblk (c : Dev nD) (t : Fin cfg0.N) : Vec Ideal S2000x1024 .i32 :=
  win0_0.fill (grid0.coords t) (fun _ => (0#32 : BitVec 32)) (iblk m c 0 t)

/-- THE ACCUMULATION: the accumulator after the point at position `n` — the point's payload of the adjacency slab, the
    accumulator before it (cleared at a first slab, else what position `n - 1` left) and the slab of augmented features. -/
def accAt (c : Dev nD) : (n : ℕ) → n < cfg0.N → Vec Ideal S2000x256 .f32
  | 0, hn => k0_pay2 (adjblk m c ⟨0, hn⟩) (k0_pay1 (F := Ideal)) (iblk m c 1 ⟨0, hn⟩)
  | n + 1, hn =>
    if (n + 1) % 10 = 0 then k0_pay2 (adjblk m c ⟨n + 1, hn⟩) (k0_pay1 (F := Ideal)) (iblk m c 1 ⟨n + 1, hn⟩)
    else k0_pay2 (adjblk m c ⟨n + 1, hn⟩) (accAt c n (Nat.lt_of_succ_lt hn)) (iblk m c 1 ⟨n + 1, hn⟩)

/-- At a first slab the accumulator starts from zero; -/
theorem accAt_first (c : Dev nD) (t : Fin cfg0.N) (h0 : t.val % 10 = 0) :
    accAt m c t.val t.isLt = k0_pay2 (adjblk m c t) (k0_pay1 (F := Ideal)) (iblk m c 1 t) := by
  obtain ⟨n, hn⟩ := t
  cases n with
  | zero => rfl
  | succ n => exact if_pos h0

/-- at any other it continues from the point before. -/
theorem accAt_next (c : Dev nD) (t : Fin cfg0.N) (h0 : ¬t.val % 10 = 0) :
    accAt m c t.val t.isLt = k0_pay2 (adjblk m c t) (accAt m c (t.val - 1) (Nat.lt_of_le_of_lt (Nat.sub_le _ _) t.isLt)) (iblk m c 1 t) := by
  obtain ⟨n, hn⟩ := t
  cases n with
  | zero => exact absurd (Nat.zero_mod _) h0
  | succ n => exact if_neg h0

/-- The output block the epilogue computes at point `t` (stored, and written back, on a last slab only). -/
def outAt (c : Dev nD) (t : Fin cfg0.N) : Vec Ideal S2000x128 .f32 :=
  k0_pay3 (accAt m c t.val t.isLt) (iblk m c 3 t) (iblk m c 2 t) (iblk m c 4 t)

end Cert.KernelIdeal.Sage

end
-- ==== Proof.PayIdx.lean ====
/-
  The kernel body's three stored values, read at one index, at the extended reals.

  The accumulator's first value is zero everywhere. The accumulator's update at row `r`, column `c` adds to the old
  value the product of row `r` of the adjacency block (its words read as signed integers) with column `c` of the
  feature slab: a sum over the slab's 1024 rows. The output at row `r`, feature `o` divides the accumulator's first
  128 columns by its column 128, multiplies the quotients by the upper half of the weight, adds the node's own
  features times the lower half of the weight, and adds the bias.
-/
import proofs.«109863_g78357383349035_cont_sun_c4_208_7_alg».proof.Proof.Gen.KernelIdeal.Skeleton
import proofs.«109863_g78357383349035_cont_sun_c4_208_7_alg».proof.Proof.Spec
import Idealize.ShloMosaic.Lib.Pipeline.Value
import Idealize.ShloMosaic.Lib.ValueIdx
import Idealize.ShloMosaic.PureOps.Ideal.Laws

noncomputable section

open scoped BigOperators

namespace Cert.Sage.Pay

open Cert.KernelIdeal Cert.KernelIdeal.Gen Idealize.ShloMosaic Idealize.ShloMosaic.ValueIdx

/-- The accumulator starts at zero. -/
theorem pay1_apply (r : Fin 2000) (c : Fin 256) : k0_pay1 (F := Ideal) (ix2 r c) = 0 := by
  unfold k0_pay1
  refine (congrFun (shapeCast_self _ shapeCasts_S2000x256_S2000x256) (ix2 r c)).trans ?_
  exact Ideal.ofBits_zero_f32

/-! ## The block product into a zero accumulator, at an index

The product's operand indices at output `(r, c)` and contraction position `kk` are `(r, kk)` and `(kk, c)`. -/

theorem acc_lhs0 (i : S2000x256.Idx) (q : dot_S2000x1024_S1024x256_S2000x256_1_0_0_1_n_n.contr.Idx) : (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide),
    dif_pos (show (0 : Fin S2000x1024.rank) ∈ dot_S2000x1024_S1024x256_S2000x256_1_0_0_1_n_n.lhsNonContracting by decide)]
  rfl
theorem acc_lhs1 (i : S2000x256.Idx) (q : dot_S2000x1024_S1024x256_S2000x256_1_0_0_1_n_n.contr.Idx) : (dot_S2000x1024_S1024x256_S2000x256_1_0_0_1_n_n.lhsIdx i q 1).val = (q ⟨0, by decide⟩).val :=
  dot_S2000x1024_S1024x256_S2000x256_1_0_0_1_n_n.lhsIdx_val_of_single rfl i q
theorem acc_rhs0 (i : S2000x256.Idx) (q : dot_S2000x1024_S1024x256_S2000x256_1_0_0_1_n_n.contr.Idx) : (dot_S2000x1024_S1024x256_S2000x256_1_0_0_1_n_n.rhsIdx i q 0).val = (q ⟨0, by decide⟩).val :=
  dot_S2000x1024_S1024x256_S2000x256_1_0_0_1_n_n.rhsIdx_val_of_single rfl i q
theorem acc_rhs1 (i : S2000x256.Idx) (q : dot_S2000x1024_S1024x256_S2000x256_1_0_0_1_n_n.contr.Idx) : (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide),
    dif_pos (show (1 : Fin S1024x256.rank) ∈ dot_S2000x1024_S1024x256_S2000x256_1_0_0_1_n_n.rhsNonContracting by decide)]
  rfl

/-- A [2000,1024] block times a [1024,256] block into a zero accumulator, at `(r, c)`: the sum over the 1024 contraction positions. -/
theorem acc_matmul_apply {φ₁ φ₂ : FTy} (L : FVec Ideal S2000x1024 φ₁) (R : FVec Ideal S1024x256 φ₂) (r : Fin 2000) (c : Fin 256) :
    matmul dot_S2000x1024_S1024x256_S2000x256_1_0_0_1_n_n none L R (constant (F := Ideal) S2000x256 .f32 0x00000000#32) (ix2 r c)
      = ∑ kk : Fin 1024, L (ix2 r kk) * R (ix2 kk c) := by
  refine (Ideal.matmul_constant_zero_apply dot_S2000x1024_S1024x256_S2000x256_1_0_0_1_n_n none L R (ix2 r c)).trans ?_
  rw [← Equiv.sum_comp (contrEquiv1 dot_S2000x1024_S1024x256_S2000x256_1_0_0_1_n_n 1024 rfl rfl).symm]
  refine Finset.sum_congr rfl fun kk _ => ?_
  have hk := contrEquiv1_symm_val dot_S2000x1024_S1024x256_S2000x256_1_0_0_1_n_n 1024 rfl rfl kk
  have el : dot_S2000x1024_S1024x256_S2000x256_1_0_0_1_n_n.lhsIdx (ix2 r c) ((contrEquiv1 dot_S2000x1024_S1024x256_S2000x256_1_0_0_1_n_n 1024 rfl rfl).symm kk) = ix2 r kk :=
    funext fun a => Fin.ext (by
      match a with
      | ⟨0, _⟩ => exact acc_lhs0 _ _
      | ⟨1, _⟩ => exact (acc_lhs1 _ _).trans hk)
  have er : dot_S2000x1024_S1024x256_S2000x256_1_0_0_1_n_n.rhsIdx (ix2 r c) ((contrEquiv1 dot_S2000x1024_S1024x256_S2000x256_1_0_0_1_n_n 1024 rfl rfl).symm kk) = ix2 kk c :=
    funext fun a => Fin.ext (by
      match a with
      | ⟨0, _⟩ => exact (acc_rhs0 _ _).trans hk
      | ⟨1, _⟩ => exact acc_rhs1 _ _)
  rw [el, er]

/-- The accumulator's update: the old value plus row `r` of the adjacency block, its words read as signed integers,
    times column `c` of the feature slab. -/
theorem pay2_apply (v3 : Vec Ideal S2000x1024 .i32) (v5 : Vec Ideal S2000x256 .f32) (v6 : Vec Ideal S1024x256 .bf16)
    (r : Fin 2000) (c : Fin 256) :
    k0_pay2 (F := Ideal) v3 v5 v6 (ix2 r c)
      = v5 (ix2 r c) + ∑ kk : Fin 1024, (((v3 (ix2 r kk)).toInt : ℝ) : EReal) * v6 (ix2 kk c) := by
  unfold k0_pay2
  refine (congrFun (shapeCast_self _ shapeCasts_S2000x256_S2000x256) (ix2 r c)).trans ?_
  refine (addf_apply _ _ (ix2 r c)).trans ?_
  refine congrArg (v5 (ix2 r c) + ·) ?_
  refine (acc_matmul_apply _ _ r c).trans ?_
  refine Finset.sum_congr rfl fun kk _ => ?_
  exact congrArg (_ * ·) (congrFun (shapeCast_self v6 shapeCasts_S1024x256_S1024x256) (ix2 kk c))

/-! ## The last step's slices and broadcasts, at an index -/

theorem out_lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
theorem out_lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem out_rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem out_rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A [2000,128] block times a [128,128] block into a zero accumulator, at `(r, o)`: the sum over the 128 contraction positions. -/
theorem out_matmul_apply {φ₁ φ₂ : FTy} (L : FVec Ideal S2000x128 φ₁) (R : FVec Ideal S128x128 φ₂) (r : Fin 2000) (c : Fin 128) :
    matmul dot_S2000x128_S128x128_S2000x128_1_0_0_1_n_n none L R (constant (F := Ideal) S2000x128 .f32 0x00000000#32) (ix2 r c)
      = ∑ kk : Fin 128, L (ix2 r kk) * R (ix2 kk c) := by
  refine (Ideal.matmul_constant_zero_apply dot_S2000x128_S128x128_S2000x128_1_0_0_1_n_n none L R (ix2 r c)).trans ?_
  rw [← Equiv.sum_comp (contrEquiv1 dot_S2000x128_S128x128_S2000x128_1_0_0_1_n_n 128 rfl rfl).symm]
  refine Finset.sum_congr rfl fun kk _ => ?_
  have hk := contrEquiv1_symm_val dot_S2000x128_S128x128_S2000x128_1_0_0_1_n_n 128 rfl rfl kk
  have el : dot_S2000x128_S128x128_S2000x128_1_0_0_1_n_n.lhsIdx (ix2 r c) ((contrEquiv1 dot_S2000x128_S128x128_S2000x128_1_0_0_1_n_n 128 rfl rfl).symm kk) = ix2 r kk :=
    funext fun a => Fin.ext (by
      match a with
      | ⟨0, _⟩ => exact out_lhs0 _ _
      | ⟨1, _⟩ => exact (out_lhs1 _ _).trans hk)
  have er : dot_S2000x128_S128x128_S2000x128_1_0_0_1_n_n.rhsIdx (ix2 r c) ((contrEquiv1 dot_S2000x128_S128x128_S2000x128_1_0_0_1_n_n 128 rfl rfl).symm kk) = ix2 kk c :=
    funext fun a => Fin.ext (by
      match a with
      | ⟨0, _⟩ => exact (out_rhs0 _ _).trans hk
      | ⟨1, _⟩ => exact out_rhs1 _ _)
  rw [el, er]

/-- The accumulator's first 128 columns: column `c` of the slice is column `c` of the accumulator. -/
theorem accLo_apply (v16 : FVec Ideal S2000x256 .f32) (r : Fin 2000) (c : Fin 128) :
    extractStridedSlice S2000x128 ![0, 0] v16 slices_S2000x256_o0_0_S2000x128 (ix2 r c) = v16 (ix2 r (Cert.Sage.lo c)) :=
  extractStridedSlice_apply _ v16 slices_S2000x256_o0_0_S2000x128 (ix2 r c) (ix2 r (Cert.Sage.lo c)) (fun a => match a with
    | ⟨0, _⟩ => by show r.val = 0 + r.val; omega
    | ⟨1, _⟩ => by show c.val = 0 + c.val; omega)

/-- The accumulator's column 128, as a one-column slice. -/
theorem accDeg_apply (v16 : FVec Ideal S2000x256 .f32) (r : Fin 2000) (z : Fin 1) :
    extractStridedSlice S2000x1 ![0, 128] v16 slices_S2000x256_o0_128_S2000x1 (ix2 r z)
      = v16 (ix2 r (⟨128, by omega⟩ : Fin 256)) :=
  extractStridedSlice_apply _ v16 slices_S2000x256_o0_128_S2000x1 (ix2 r z) (ix2 r (⟨128, by omega⟩ : Fin 256)) (fun a => match a with
    | ⟨0, _⟩ => by show r.val = 0 + r.val; omega
    | ⟨1, _⟩ => by show 128 = 128 + z.val; have := z.isLt; omega)

/-- A one-column block broadcast along the columns reads its one column everywhere. -/
theorem bcastCol_apply (x : FVec Ideal S2000x1 .f32) (r : Fin 2000) (c : Fin 128) :
    broadcastTo S2000x128 x broadcasts_S2000x1_S2000x128 (ix2 r c) = x (ix2 r (0 : Fin 1)) :=
  broadcastTo_apply x broadcasts_S2000x1_S2000x128 (ix2 r c) (ix2 r (0 : Fin 1)) (fun a => match a with
    | ⟨0, _⟩ => by show r.val = if (2000 : Nat) = 1 then 0 else r.val; rw [if_neg (by decide)]
    | ⟨1, _⟩ => by show 0 = if (1 : Nat) = 1 then 0 else c.val; rw [if_pos rfl])

/-- A one-row block broadcast along the rows reads its one row everywhere. -/
theorem bcastRow_apply (x : FVec Ideal S1x128 .f32) (r : Fin 2000) (o : Fin 128) :
    broadcastTo S2000x128 x broadcasts_S1x128_S2000x128 (ix2 r o) = x (ix2 (0 : Fin 1) o) :=
  broadcastTo_apply x broadcasts_S1x128_S2000x128 (ix2 r o) (ix2 (0 : Fin 1) o) (fun a => match a with
    | ⟨0, _⟩ => by show 0 = if (1 : Nat) = 1 then 0 else r.val; rw [if_pos rfl]
    | ⟨1, _⟩ => by show o.val = if (128 : Nat) = 1 then 0 else o.val; rw [if_neg (by decide)])

/-- The weight's upper half: row `c` of the slice is row `c` of the weight. -/
theorem wLo_apply (v21 : FVec Ideal S256x128 .f32) (c o : Fin 128) :
    extractStridedSlice S128x128 ![0, 0] v21 slices_S256x128_o0_0_S128x128 (ix2 c o) = v21 (ix2 (Cert.Sage.lo c) o) :=
  extractStridedSlice_apply _ v21 slices_S256x128_o0_0_S128x128 (ix2 c o) (ix2 (Cert.Sage.lo c) o) (fun a => match a with
    | ⟨0, _⟩ => by show c.val = 0 + c.val; omega
    | ⟨1, _⟩ => by show o.val = 0 + o.val; omega)

/-- The weight's lower half: row `c` of the slice is row `128 + c` of the weight. -/
theorem wHi_apply (v21 : FVec Ideal S256x128 .f32) (c o : Fin 128) :
    extractStridedSlice S128x128 ![128, 0] v21 slices_S256x128_o128_0_S128x128 (ix2 c o) = v21 (ix2 (Cert.Sage.hi c) o) :=
  extractStridedSlice_apply _ v21 slices_S256x128_o128_0_S128x128 (ix2 c o) (ix2 (Cert.Sage.hi c) o) (fun a => match a with
    | ⟨0, _⟩ => by show 128 + c.val = 128 + c.val; rfl
    | ⟨1, _⟩ => by show o.val = 0 + o.val; omega)

/-- The output block: the accumulator's first 128 columns over its column 128, times the weight's upper half; plus the
    node's own features times the weight's lower half; plus the bias. -/
theorem pay3_apply (v16 : Vec Ideal S2000x256 .f32) (v21 : Vec Ideal S256x128 .f32) (v24 : Vec Ideal S2000x128 .f32)
    (v28 : Vec Ideal S1x128 .f32) (r : Fin 2000) (o : Fin 128) :
    k0_pay3 (F := Ideal) v16 v21 v24 v28 (ix2 r o)
      = ((∑ c : Fin 128, Ideal.div (v16 (ix2 r (Cert.Sage.lo c))) (v16 (ix2 r (⟨128, by omega⟩ : Fin 256)))
              * v21 (ix2 (Cert.Sage.lo c) o))
          + ∑ c : Fin 128, v24 (ix2 r c) * v21 (ix2 (Cert.Sage.hi c) o)) + v28 (ix2 (0 : Fin 1) o) := by
  unfold k0_pay3
  refine (addf_apply _ _ (ix2 r o)).trans ?_
  refine congrArg₂ (· + ·) ?_ ?_
  · refine (addf_apply _ _ (ix2 r o)).trans ?_
    refine congrArg₂ (· + ·) ?_ ?_
    · refine (out_matmul_apply _ _ r o).trans ?_
      refine Finset.sum_congr rfl fun c _ => ?_
      refine congrArg₂ (· * ·) ?_ (wLo_apply v21 c o)
      refine (divf_apply _ _ (ix2 r c)).trans ?_
      refine congrArg₂ Ideal.div (accLo_apply v16 r c) ?_
      exact (bcastCol_apply _ r c).trans (accDeg_apply v16 r 0)
    · refine (out_matmul_apply _ _ r o).trans ?_
      exact Finset.sum_congr rfl fun c _ => congrArg (_ * ·) (wHi_apply v21 c o)
  · refine (bcastRow_apply _ r o).trans ?_
    exact congrFun (shapeCast_self v28 shapeCasts_S1x128_S1x128) (ix2 (0 : Fin 1) o)

end Cert.Sage.Pay

end
-- ==== Proof.BlockReads.lean ====
/-
  Each window's block at a grid point, read at an index, is the array the region finds at the corresponding index.

  The grid is 5 × 10, the second axis fastest: point `t` works on row block `t / 10` (2000 rows) and on slab `t % 10`
  (1024 of the contraction's positions). The adjacency window's last slab overhangs its array: of its 1024 columns
  only the first 784 are moved, so a staging buffer keeps, beyond them, what it held before.
-/
import proofs.«109863_g78357383349035_cont_sun_c4_208_7_alg».proof.Proof.Gen.KernelIdeal.Frame
import proofs.«109863_g78357383349035_cont_sun_c4_208_7_alg».proof.Proof.Gen.KernelIdeal.Points
import Idealize.ShloMosaic.Lib.Pipeline.Value
import Idealize.ShloMosaic.Lib.ValueIdx

noncomputable section

namespace Cert.KernelIdeal.Sage

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ)

/-- The grid has fifty points. -/
theorem point_lt (t : Fin cfg0.N) : t.val < 50 := lt_of_lt_of_eq t.isLt N_0

/-- The windows' block indices at point `t`, decided over the grid: the adjacency block is at (row block, slab), the
    feature slab at (slab, 0), the node features and the output at (row block, 0), the weight and the bias at (0, 0). -/
theorem idx_facts : ∀ t : Fin cfg0.N,
    win0_0.index t (0 : Fin 2) = t.val / 10 ∧ win0_0.index t (1 : Fin 2) = t.val % 10
    ∧ win0_1.index t (0 : Fin 2) = t.val % 10 ∧ win0_1.index t (1 : Fin 2) = 0
    ∧ win0_2.index t (0 : Fin 2) = t.val / 10 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 10 ∧ win0_5.index t (1 : Fin 2) = 0 :=
  (by decide +kernel : ∀ t : Fin grid0.N, _)

/-- The feature slab at point `t`: rows `1024 · (t % 10) + kk` of the padded feature array. -/
theorem iblk1_apply (c : Dev nD) (t : Fin cfg0.N) (kk : Fin 1024) (cc : Fin 256) :
    iblk m c 1 t (ix2 kk cc) = V m c main_v10 (ix2 (⟨1024 * (t.val % 10) + kk.val, by omega⟩ : Fin 10240) cc) := by
  obtain ⟨-, -, e0, e1, -⟩ := idx_facts t
  show V m c main_v10 (((cfg0.win 1).blk t).view.emb (ix2 kk cc)) = _
  refine congrArg _ ?_
  funext a; apply Fin.ext
  match a with
  | ⟨0, _⟩ => show win0_1.index t (0 : Fin 2) * 1024 + 1 * kk.val = 1024 * (t.val % 10) + kk.val; omega
  | ⟨1, _⟩ => show win0_1.index t (1 : Fin 2) * 256 + 1 * cc.val = cc.val; omega

/-- The node features at point `t`: rows `2000 · (t / 10) + r`. -/
theorem iblk2_apply (c : Dev nD) (t : Fin cfg0.N) (r : Fin 2000) (cc : Fin 128) :
    iblk m c 2 t (ix2 r cc)
      = V m c main_arg0 (ix2 (⟨2000 * (t.val / 10) + r.val, by have := point_lt t; omega⟩ : Fin 10000) cc) := by
  obtain ⟨-, -, -, -, e0, e1, -⟩ := idx_facts t
  show V m c main_arg0 (((cfg0.win 2).blk t).view.emb (ix2 r cc)) = _
  refine congrArg _ ?_
  funext a; apply Fin.ext
  match a with
  | ⟨0, _⟩ => show win0_2.index t (0 : Fin 2) * 2000 + 1 * r.val = 2000 * (t.val / 10) + r.val; omega
  | ⟨1, _⟩ => show win0_2.index t (1 : Fin 2) * 128 + 1 * cc.val = cc.val; omega

/-- The weight's block is the whole weight at every point. -/
theorem iblk3_apply (c : Dev nD) (t : Fin cfg0.N) (r : Fin 256) (o : Fin 128) :
    iblk m c 3 t (ix2 r o) = V m c main_arg2 (ix2 r o) := by
  obtain ⟨-, -, -, -, -, -, e0, e1, -⟩ := idx_facts t
  show V m c main_arg2 (((cfg0.win 3).blk t).view.emb (ix2 r o)) = _
  refine congrArg _ ?_
  funext a; apply Fin.ext
  match a with
  | ⟨0, _⟩ => show win0_3.index t (0 : Fin 2) * 256 + 1 * r.val = r.val; omega
  | ⟨1, _⟩ => show win0_3.index t (1 : Fin 2) * 128 + 1 * o.val = o.val; omega

/-- The bias's block is the whole bias row at every point. -/
theorem iblk4_apply (c : Dev nD) (t : Fin cfg0.N) (o : Fin 128) :
    iblk m c 4 t (ix2 (0 : Fin 1) o) = V m c main_v11 (ix2 (0 : Fin 1) o) := by
  obtain ⟨-, -, -, -, -, -, -, -, e0, e1, -⟩ := idx_facts t
  show V m c main_v11 (((cfg0.win 4).blk t).view.emb (ix2 (0 : Fin 1) o)) = _
  refine congrArg _ ?_
  funext a; apply Fin.ext
  match a with
  | ⟨0, _⟩ => show win0_4.index t (0 : Fin 2) * 1 + 1 * 0 = 0; omega
  | ⟨1, _⟩ => show win0_4.index t (1 : Fin 2) * 128 + 1 * o.val = o.val; omega

/-- What the adjacency window's transfer at point `t` moves, decided over the grid: all 2000 rows, and all 1024
    columns except in the last slab, where the array ends after 784 of them. -/
theorem xsize_facts : ∀ t : Fin cfg0.N,
    win0_0.xsize (grid0.coords t) (0 : Fin 2) = 2000
    ∧ win0_0.xsize (grid0.coords t) (1 : Fin 2) = if t.val % 10 = 9 then 784 else 1024 :=
  (by decide +kernel : ∀ t : Fin grid0.N, _)

/-- A staging buffer of the adjacency window after the fetch at point `t`: where the slab's column lies inside the
    array, the array's word at (row block's row, slab's column); beyond the array's end, what the buffer held. -/
theorem fill0_apply (c : Dev nD) (t : Fin cfg0.N) (d : S2000x1024.Idx → Elt F .i32) (r : Fin 2000) (kk : Fin 1024) :
    win0_0.fill (grid0.coords t) d (iblk m c 0 t) (ix2 r kk)
      = if h : 1024 * (t.val % 10) + kk.val < 10000 then
          V m c main_arg1 (ix2 (⟨2000 * (t.val / 10) + r.val, by have := point_lt t; omega⟩ : Fin 10000)
            (⟨1024 * (t.val % 10) + kk.val, h⟩ : Fin 10000))
        else d (ix2 r kk) := by
  obtain ⟨x0, x1⟩ := xsize_facts t
  obtain ⟨e0, e1, -⟩ := idx_facts t
  have ht := point_lt t
  have hm : win0_0.moved (grid0.coords t) (ix2 r kk) = true ↔ 1024 * (t.val % 10) + kk.val < 10000 := by
    rw [Pipeline.Window.moved_iff]
    constructor
    · intro h
      have h1 : kk.val < win0_0.xsize (grid0.coords t) (1 : Fin 2) := h 1
      rw [x1] at h1
      split at h1 <;> omega
    · intro h a
      match a with
      | ⟨0, _⟩ => show r.val < win0_0.xsize (grid0.coords t) (0 : Fin 2); rw [x0]; omega
      | ⟨1, _⟩ => show kk.val < win0_0.xsize (grid0.coords t) (1 : Fin 2); rw [x1]; split <;> omega
  unfold Pipeline.Window.fill
  by_cases h : 1024 * (t.val % 10) + kk.val < 10000
  · rw [dif_pos (hm.mpr h), dif_pos h]
    show V m c main_arg1 (((cfg0.win 0).blk t).view.emb _) = _
    refine congrArg _ ?_
    funext a; apply Fin.ext
    match a with
    | ⟨0, _⟩ => show win0_0.index t (0 : Fin 2) * 2000 + 1 * r.val = 2000 * (t.val / 10) + r.val; omega
    | ⟨1, _⟩ => show win0_0.index t (1 : Fin 2) * 1024 + 1 * kk.val = 1024 * (t.val % 10) + kk.val; omega
  · rw [dif_neg (fun hh => h (hm.mp hh)), dif_neg h]

/-- The output window's block at point `t`, read off any contents `G` of the output array: rows `2000 · (t / 10) + r`. -/
theorem blk5_read (c : Dev nD) (t : Fin cfg0.N) (G : S10000x128.Idx → Elt F .f32) (r : Fin 2000) (o : Fin 128) :
    ((cfg0.win 5).blk t).view.read (Elt F) G (ix2 r o)
      = G (ix2 (⟨2000 * (t.val / 10) + r.val, by have := point_lt t; omega⟩ : Fin 10000) o) := by
  obtain ⟨-, -, -, -, -, -, -, -, -, -, e0, e1⟩ := idx_facts t
  show G (((cfg0.win 5).blk t).view.emb (ix2 r o)) = _
  refine congrArg _ ?_
  funext a; apply Fin.ext
  match a with
  | ⟨0, _⟩ => show win0_5.index t (0 : Fin 2) * 2000 + 1 * r.val = 2000 * (t.val / 10) + r.val; omega
  | ⟨1, _⟩ => show win0_5.index t (1 : Fin 2) * 128 + 1 * o.val = o.val; omega

/-- An index of the output array lies in point `t`'s block iff each coordinate lies in the block's range on its axis. -/
theorem mem_blk5 (t : Fin cfg0.N) (i : S10000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v12).slice (win0_5.rect t)).set ↔ _
  rw [View.set_slice_whole, Rect.mem_set_unit]
  exact Iff.rfl

/-- Every index of the output array lies in the block of a point that writes its block back: row `ρ` in that of the
    last slab's point of row block `ρ / 2000`. -/
theorem covered5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  obtain ⟨t, ht⟩ : ∃ t : Fin cfg0.N, t.val = 10 * ((i 0).val / 2000) + 9 :=
    ⟨⟨10 * ((i 0).val / 2000) + 9, lt_of_lt_of_eq (by omega) N_0.symm⟩, rfl⟩
  obtain ⟨-, -, -, -, -, -, -, -, -, -, e0, e1⟩ := idx_facts t
  refine ⟨t, (flush0_5 t).mpr (by omega), ?_⟩
  rw [mem_blk5]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The same, in the form the whole-array post asks for at core `c`. -/
theorem cover5 (c : Dev nD) : ∀ i : S10000x128.Idx,
    ∃ t : Fin cfg0.N, (cfg0.win 5).flush t = true ∧ i ∈ ((cfg0.win 5).blk t).view.set := covered5

end Cert.KernelIdeal.Sage

end
-- ==== Proof.HostXa.lean ====
/-
  What the host operations before the kernel's call leave in the two arrays its windows 1 and 4 read, at the
  ideal instance.

  Window 1's array `xa : [10240, 256]` is built from zeros by two scatters whose body returns the update
  (`xa.at[:10000, :128].set(x)`, then `xa.at[:10000, 128].set(1)`), each with ONE start index and the whole update
  array as its window. Such a scatter is a left fold of "overwrite one entry" steps over the update indices; since
  the map from update indices to the entries they land on is injective, the result at an entry is the update that
  lands there when there is one, and the operand's entry otherwise (`scatter_set_hit`, `scatter_set_miss`, for any
  dimension numbers). For the two scatters here the landing entry is `(r, q) ↦ (r, q)` and `r ↦ (r, 128)`
  (`D1_result`, `D2_result`), so

    xa[k, c] = x[k, c]  for k < 10000, c < 128;   1  for k < 10000, c = 128;   0  elsewhere   (`V_xa`),

  the conversion of `x` to bf16 being the identity at the ideal instance. Window 4's array is the bias reshaped to
  one row (`V_bias`).
-/
import proofs.«109863_g78357383349035_cont_sun_c4_208_7_alg».proof.Proof.Gen.KernelIdeal.Frame
import proofs.«109863_g78357383349035_cont_sun_c4_208_7_alg».proof.Proof.Spec
import Idealize.ShloMosaic.Lib.Pipeline.Value
import Idealize.ShloMosaic.Lib.ValueIdx
import Idealize.ShloMosaic.Lib.IdealHost

noncomputable section

namespace Cert.Sage.HostXa

open Cert.KernelIdeal Idealize.ShloMosaic Idealize.ShloMosaic.ValueIdx Idealize.ShloMosaic.TcCoe

/-! ## A left fold of "overwrite one entry" steps, read at an entry -/

section Fold
variable {ι κ α : Type} [DecidableEq ι] (g : κ → Option ι) (val : κ → α)
  (step : (ι → α) → κ → (ι → α))
  (hsome : ∀ r n i0, g n = some i0 → ∀ i', step r n i' = if i' = i0 then val n else r i')
  (hnone : ∀ r n, g n = none → step r n = r)
include hsome hnone

/-- No step of the list lands on `i`: the fold leaves the entry as it was. -/
theorem foldl_miss (i : ι) (L : List κ) (x : ι → α) (h : ∀ n ∈ L, g n ≠ some i) :
    L.foldl step x i = x i := by
  induction L generalizing x with
  | nil => rfl
  | cons n L ih =>
    rw [List.foldl_cons, ih _ (fun n' hn' => h n' (List.mem_cons_of_mem _ hn'))]
    have hn := h n (List.mem_cons_self ..)
    cases hg : g n with
    | none => rw [hnone x n hg]
    | some i0 =>
      rw [hsome x n i0 hg i, if_neg]
      intro hi; exact hn (by rw [hg, hi])

/-- Some step of the list lands on `i`, and every step that does writes `v`: the fold leaves `v` there. -/
theorem foldl_hit (i : ι) (v : α) (L : List κ) (x : ι → α) (hv : ∀ n ∈ L, g n = some i → val n = v)
    (hex : ∃ n ∈ L, g n = some i) : L.foldl step x i = v := by
  induction L generalizing x with
  | nil => obtain ⟨n, hn, _⟩ := hex; cases hn
  | cons n L ih =>
    rw [List.foldl_cons]
    by_cases hL : ∃ n' ∈ L, g n' = some i
    · exact ih _ (fun n' hn' => hv n' (List.mem_cons_of_mem _ hn')) hL
    · rw [foldl_miss g val step hsome hnone i L _ (fun n' hn' hg => hL ⟨n', hn', hg⟩)]
      obtain ⟨n0, hn0, hg0⟩ := hex
      rcases List.mem_cons.1 hn0 with rfl | hn0'
      · rw [hsome x n0 i hg0 i, if_pos rfl]; exact hv n0 (List.mem_cons_self ..) hg0
      · exact absurd ⟨n0, hn0', hg0⟩ hL

end Fold

/-! ## A scatter whose body returns the update (`x.at[…].set(u)`), read at an entry -/

section Scatter
variable {s si u : Shape} {w : Nat} {α : Type} (d : ScatterDims s si u) (x : s.Idx → α) (idx : IVec si w) (upd : u.Idx → α)

/-- No update lands on `i`: the operand's entry stays. -/
theorem scatter_set_miss (i : s.Idx) (h : ∀ j : u.Idx, d.resultIdx? j idx ≠ some i) :
    Host.scatter d (fun _ b => b) x idx upd i = x i := by
  unfold Host.scatter
  refine foldl_miss (fun n => d.resultIdx? (u.rowMajor.symm n) idx) (fun n => upd (u.rowMajor.symm n)) _ ?_ ?_ i _ x
    (fun n _ => h _)
  · intro r n i0 hg i'
    simp only [hg]
  · intro r n hg
    simp only [hg]

/-- Exactly the update at `j0` lands on `i`: the entry holds it. -/
theorem scatter_set_hit (i : s.Idx) (j0 : u.Idx) (h0 : d.resultIdx? j0 idx = some i)
    (huniq : ∀ j : u.Idx, d.resultIdx? j idx = some i → j = j0) :
    Host.scatter d (fun _ b => b) x idx upd i = upd j0 := by
  unfold Host.scatter
  refine foldl_hit (fun n => d.resultIdx? (u.rowMajor.symm n) idx) (fun n => upd (u.rowMajor.symm n)) _ ?_ ?_ i _ _ x
    (fun n _ hg => by rw [huniq _ hg]) ⟨u.rowMajor j0, List.mem_finRange _, by rw [Equiv.symm_apply_apply]; exact h0⟩
  · intro r n i0 hg i'
    simp only [hg]
  · intro r n hg
    simp only [hg]

end Scatter

/-! ## The two scatters of this program: where an update index lands -/

/-- `xa.at[:10000, :128].set(x)`: both update axes are window axes, one start index `(idx 0, idx 1)`. -/
abbrev D1 : ScatterDims S10240x256 S2 S10000x128 := scatter_S10240x256_S2_S10000x128_01_n_01_0
/-- `xa.at[:10000, 128].set(1)`: the update's one axis is the window along the rows, the column axis is inserted. -/
abbrev D2 : ScatterDims S10240x256 S2 S10000 := scatter_S10240x256_S2_S10000_0_1_01_0

section Land
variable {w : Nat}

theorem D1_siIdx (j : S10000x128.Idx) (c : Fin D1.scatterDimsToOperandDims.length) :
    D1.siIdx j c = ix1 (⟨c.val, c.isLt⟩ : Fin 2) := by
  funext b; match b with | ⟨0, _⟩ => rfl

theorem D2_siIdx (j : S10000.Idx) (c : Fin D2.scatterDimsToOperandDims.length) :
    D2.siIdx j c = ix1 (⟨c.val, c.isLt⟩ : Fin 2) := by
  funext b; match b with | ⟨0, _⟩ => rfl

theorem D1_start0 (j : S10000x128.Idx) (idx : IVec S2 w) : D1.start j idx (0 : Fin 2) = (idx (ix1 0)).toInt := by
  unfold ScatterDims.start; rw [dif_pos (by decide), D1_siIdx]; rfl
theorem D1_start1 (j : S10000x128.Idx) (idx : IVec S2 w) : D1.start j idx (1 : Fin 2) = (idx (ix1 1)).toInt := by
  unfold ScatterDims.start; rw [dif_pos (by decide), D1_siIdx]; rfl
theorem D2_start0 (j : S10000.Idx) (idx : IVec S2 w) : D2.start j idx (0 : Fin 2) = (idx (ix1 0)).toInt := by
  unfold ScatterDims.start; rw [dif_pos (by decide), D2_siIdx]; rfl
theorem D2_start1 (j : S10000.Idx) (idx : IVec S2 w) : D2.start j idx (1 : Fin 2) = (idx (ix1 1)).toInt := by
  unfold ScatterDims.start; rw [dif_pos (by decide), D2_siIdx]; rfl

theorem D1_window0 (j : S10000x128.Idx) : D1.window j (0 : Fin 2) = (j 0).val := by
  unfold ScatterDims.window; rw [dif_pos (by decide)]; rfl
theorem D1_window1 (j : S10000x128.Idx) : D1.window j (1 : Fin 2) = (j 1).val := by
  unfold ScatterDims.window; rw [dif_pos (by decide)]; rfl
theorem D2_window0 (j : S10000.Idx) : D2.window j (0 : Fin 2) = (j 0).val := by
  unfold ScatterDims.window; rw [dif_pos (by decide)]; rfl
theorem D2_window1 (j : S10000.Idx) : D2.window j (1 : Fin 2) = 0 := by
  unfold ScatterDims.window; rw [dif_neg (by decide)]

end Land

section Result
variable {w : Nat}

/-- The first scatter, start `(0, 0)`: update index `(r, q)` lands on `(r, q)`. -/
theorem D1_result (j : S10000x128.Idx) (idx : IVec S2 w) (h0 : (idx (ix1 0)).toInt = 0) (h1 : (idx (ix1 1)).toInt = 0) :
    D1.resultIdx? j idx
      = some (ix2 (⟨(j 0).val, by have := idx2_lt0 j; omega⟩ : Fin 10240) (⟨(j 1).val, by have := idx2_lt1 j; omega⟩ : Fin 256)) := by
  have hj0 := idx2_lt0 j
  have hj1 := idx2_lt1 j
  have e0 : D1.start j idx (0 : Fin 2) + (D1.window j (0 : Fin 2) : Int) = ((j 0).val : Int) := by
    rw [D1_start0, D1_window0, h0, zero_add]
  have e1 : D1.start j idx (1 : Fin 2) + (D1.window j (1 : Fin 2) : Int) = ((j 1).val : Int) := by
    rw [D1_start1, D1_window1, h1, zero_add]
  have hin : ∀ a, 0 ≤ D1.start j idx a + D1.window j a ∧ D1.start j idx a + D1.window j a < S10240x256.size a := by
    intro a
    match a with
    | ⟨0, _⟩ => show 0 ≤ D1.start j idx (0 : Fin 2) + (D1.window j (0 : Fin 2) : Int) ∧ D1.start j idx (0 : Fin 2) + (D1.window j (0 : Fin 2) : Int) < ((10240 : Nat) : Int); rw [e0]; omega
    | ⟨1, _⟩ => show 0 ≤ D1.start j idx (1 : Fin 2) + (D1.window j (1 : Fin 2) : Int) ∧ D1.start j idx (1 : Fin 2) + (D1.window j (1 : Fin 2) : Int) < ((256 : Nat) : Int); rw [e1]; omega
  unfold ScatterDims.resultIdx?
  rw [dif_pos hin]
  refine congrArg some (funext fun a => ?_)
  match a with
  | ⟨0, _⟩ => exact Fin.ext (by show (D1.start j idx (0 : Fin 2) + (D1.window j (0 : Fin 2) : Int)).toNat = (j 0).val; rw [e0]; exact Int.toNat_natCast _)
  | ⟨1, _⟩ => exact Fin.ext (by show (D1.start j idx (1 : Fin 2) + (D1.window j (1 : Fin 2) : Int)).toNat = (j 1).val; rw [e1]; exact Int.toNat_natCast _)

theorem idx1_lt {n : Nat} (j : (⟨1, ![n]⟩ : Shape).Idx) : (j 0).val < n := (j 0).isLt

/-- The second scatter, start `(0, 128)`: update index `r` lands on `(r, 128)`. -/
theorem D2_result (j : S10000.Idx) (idx : IVec S2 w) (h0 : (idx (ix1 0)).toInt = 0) (h1 : (idx (ix1 1)).toInt = 128) :
    D2.resultIdx? j idx
      = some (ix2 (⟨(j 0).val, by have := idx1_lt j; omega⟩ : Fin 10240) (⟨128, by omega⟩ : Fin 256)) := by
  have hj0 : (j 0).val < 10000 := idx1_lt j
  have e0 : D2.start j idx (0 : Fin 2) + (D2.window j (0 : Fin 2) : Int) = ((j 0).val : Int) := by
    rw [D2_start0, D2_window0, h0, zero_add]
  have e1 : D2.start j idx (1 : Fin 2) + (D2.window j (1 : Fin 2) : Int) = 128 := by
    rw [D2_start1, D2_window1, h1]; rfl
  have hin : ∀ a, 0 ≤ D2.start j idx a + D2.window j a ∧ D2.start j idx a + D2.window j a < S10240x256.size a := by
    intro a
    match a with
    | ⟨0, _⟩ => show 0 ≤ D2.start j idx (0 : Fin 2) + (D2.window j (0 : Fin 2) : Int) ∧ D2.start j idx (0 : Fin 2) + (D2.window j (0 : Fin 2) : Int) < ((10240 : Nat) : Int); rw [e0]; omega
    | ⟨1, _⟩ => show 0 ≤ D2.start j idx (1 : Fin 2) + (D2.window j (1 : Fin 2) : Int) ∧ D2.start j idx (1 : Fin 2) + (D2.window j (1 : Fin 2) : Int) < ((256 : Nat) : Int); rw [e1]; omega
  unfold ScatterDims.resultIdx?
  rw [dif_pos hin]
  refine congrArg some (funext fun a => ?_)
  match a with
  | ⟨0, _⟩ => exact Fin.ext (by show (D2.start j idx (0 : Fin 2) + (D2.window j (0 : Fin 2) : Int)).toNat = (j 0).val; rw [e0]; exact Int.toNat_natCast _)
  | ⟨1, _⟩ => exact Fin.ext (by show (D2.start j idx (1 : Fin 2) + (D2.window j (1 : Fin 2) : Int)).toNat = 128; rw [e1]; rfl)

end Result

/-! ## The two scatters read at an entry -/

section Apply
variable {w : Nat} {α : Type}

/-- `x.at[:10000, :128].set(u)` at `(k, cc)`: `u` on the first 10000 rows and 128 columns, `x` elsewhere. -/
theorem scatter1_apply (x : S10240x256.Idx → α) (idx : IVec S2 w) (h0 : (idx (ix1 0)).toInt = 0) (h1 : (idx (ix1 1)).toInt = 0)
    (upd : S10000x128.Idx → α) (k : Fin 10240) (cc : Fin 256) :
    Host.scatter D1 (fun _ b => b) x idx upd (ix2 k cc)
      = if h : k.val < 10000 ∧ cc.val < 128 then upd (ix2 (⟨k.val, h.1⟩ : Fin 10000) (⟨cc.val, h.2⟩ : Fin 128)) else x (ix2 k cc) := by
  by_cases h : k.val < 10000 ∧ cc.val < 128
  · rw [dif_pos h]
    refine scatter_set_hit D1 x idx upd (ix2 k cc) (ix2 (⟨k.val, h.1⟩ : Fin 10000) (⟨cc.val, h.2⟩ : Fin 128)) ?_ ?_
    · rw [D1_result _ _ h0 h1]
    · intro j hj
      rw [D1_result _ _ h0 h1] at hj
      have hj' := Option.some.inj hj
      have c0 : (j 0).val = k.val := congrArg Fin.val (congrFun hj' (0 : Fin 2))
      have c1 : (j 1).val = cc.val := congrArg Fin.val (congrFun hj' (1 : Fin 2))
      have a0 : (j 0 : Fin 10000) = ⟨k.val, h.1⟩ := Fin.ext c0
      have a1 : (j 1 : Fin 128) = ⟨cc.val, h.2⟩ := Fin.ext c1
      exact (eq_ix2 j).trans (congrArg₂ (ix2 (n0 := 10000) (n1 := 128)) a0 a1)
  · rw [dif_neg h]
    refine scatter_set_miss D1 x idx upd (ix2 k cc) (fun j hj => h ?_)
    rw [D1_result _ _ h0 h1] at hj
    have hj' := Option.some.inj hj
    have c0 : (j 0).val = k.val := congrArg Fin.val (congrFun hj' (0 : Fin 2))
    have c1 : (j 1).val = cc.val := congrArg Fin.val (congrFun hj' (1 : Fin 2))
    have := idx2_lt0 j; have := idx2_lt1 j
    omega

/-- `x.at[:10000, 128].set(u)` at `(k, cc)`: `u` on column 128 of the first 10000 rows, `x` elsewhere. -/
theorem scatter2_apply (x : S10240x256.Idx → α) (idx : IVec S2 w) (h0 : (idx (ix1 0)).toInt = 0) (h1 : (idx (ix1 1)).toInt = 128)
    (upd : S10000.Idx → α) (k : Fin 10240) (cc : Fin 256) :
    Host.scatter D2 (fun _ b => b) x idx upd (ix2 k cc)
      = if h : k.val < 10000 ∧ cc.val = 128 then upd (ix1 (⟨k.val, h.1⟩ : Fin 10000)) else x (ix2 k cc) := by
  by_cases h : k.val < 10000 ∧ cc.val = 128
  · rw [dif_pos h]
    refine scatter_set_hit D2 x idx upd (ix2 k cc) (ix1 (⟨k.val, h.1⟩ : Fin 10000)) ?_ ?_
    · rw [D2_result _ _ h0 h1]
      refine congrArg some (funext fun a => ?_)
      match a with
      | ⟨0, _⟩ => rfl
      | ⟨1, _⟩ => exact Fin.ext h.2.symm
    · intro j hj
      rw [D2_result _ _ h0 h1] at hj
      have hj' := Option.some.inj hj
      have c0 : (j 0).val = k.val := congrArg Fin.val (congrFun hj' (0 : Fin 2))
      have a0 : (j 0 : Fin 10000) = ⟨k.val, h.1⟩ := Fin.ext c0
      exact (eq_ix1 j).trans (congrArg (ix1 (n := 10000)) a0)
  · rw [dif_neg h]
    refine scatter_set_miss D2 x idx upd (ix2 k cc) (fun j hj => h ?_)
    rw [D2_result _ _ h0 h1] at hj
    have hj' := Option.some.inj hj
    have c0 : (j 0).val = k.val := congrArg Fin.val (congrFun hj' (0 : Fin 2))
    have c1 : 128 = cc.val := congrArg Fin.val (congrFun hj' (1 : Fin 2))
    have : (j 0).val < 10000 := (j 0).isLt
    omega

end Apply

/-! ## The index tensors and constants of @main -/

/-- The start index the host builds as `concatenate [broadcast c₀, broadcast c₁]`, at its two entries. -/
theorem startIdx_apply0 (c0 c1 : BitVec 32) :
    (concatenate S2 0 [⟨S1, broadcastInDim S1 ![] Facts₀.bcast_S_S1 (constantI S_ 32 c0)⟩,
        ⟨S1, broadcastInDim S1 ![] Facts₀.bcast_S_S1 (constantI S_ 32 c1)⟩] Facts₀.concatenates_S1_S1_S2_d0 : IVec S2 32) (ix1 (0 : Fin 2)) = c0 :=
  (concatenate_pair_apply_left (t := S2) (s₁ := S1) (s₂ := S1) 0 _ _ Facts₀.concatenates_S1_S1_S2_d0 (ix1 (0 : Fin 2)) rfl (ix1 (0 : Fin 1))
    (fun b => match b with | ⟨0, _⟩ => rfl)).trans rfl

theorem startIdx_apply1 (c0 c1 : BitVec 32) :
    (concatenate S2 0 [⟨S1, broadcastInDim S1 ![] Facts₀.bcast_S_S1 (constantI S_ 32 c0)⟩,
        ⟨S1, broadcastInDim S1 ![] Facts₀.bcast_S_S1 (constantI S_ 32 c1)⟩] Facts₀.concatenates_S1_S1_S2_d0 : IVec S2 32) (ix1 (1 : Fin 2)) = c1 :=
  (concatenate_pair_apply_right (t := S2) (s₁ := S1) (s₂ := S1) 0 _ _ Facts₀.concatenates_S1_S1_S2_d0 (ix1 (1 : Fin 2)) rfl rfl (ix1 (0 : Fin 1))
    (fun b hb => match b, hb with | ⟨0, _⟩, hb => absurd rfl hb) rfl).trans rfl

/-! ## The buffers the kernel's windows 1 and 4 read -/

variable (m : (ℓ : Loc nD τ sig) → Buf (Elt Ideal) ℓ)

/-- Window 4's array is the bias, reshaped to one row. -/
theorem V_bias (c : Dev nD) (o : Fin 128) :
    (Gen.V (F := Ideal) m c main_v11 : S1x128.Idx → EReal) (ix2 (0 : Fin 1) o)
      = (m ((c : Thread nD τ).loc main_arg3) : S128.Idx → EReal) (ix1 o) := by
  have e : (Gen.V (F := Ideal) m c main_v11 : S1x128.Idx → EReal)
      = shapeCast S1x128 (m ((c : Thread nD τ).loc main_arg3) : S128.Idx → EReal) Facts₀.shapeCasts_S128_S1x128 := by
    dsimp only [Gen.V, Gen.hostOps0]; after_results <;> rfl
  rw [e]
  refine shapeCast_apply _ _ (ix2 (0 : Fin 1) o) (ix1 o) ?_
  rw [Shape.rowMajor_val_two, Shape.rowMajor_val_one]
  show o.val = 0 * 128 + o.val
  omega

/-- Window 1's array is `[x | 1 | 0]` on the 10000 real rows and zero on the 240 padding rows. -/
theorem V_xa (c : Dev nD) (k : Fin 10240) (cc : Fin 256) :
    (Gen.V (F := Ideal) m c main_v10 : S10240x256.Idx → EReal) (ix2 k cc)
      = (if hk : k.val < 10000 then
          (if hc : cc.val < 128 then ((m ((c : Thread nD τ).loc main_arg0) : S10000x128.Idx → EReal) (ix2 ⟨k.val, hk⟩ ⟨cc.val, hc⟩) : EReal)
           else if cc.val = 128 then (1 : EReal) else 0)
        else 0 : EReal) := by
  have e : (Gen.V (F := Ideal) m c main_v10 : S10240x256.Idx → EReal)
      = Host.scatter D2 (fun _ b => b)
          (Host.scatter D1 (fun _ b => b)
            (broadcastInDim S10240x256 ![] Facts₀.bcast_S_S10240x256 (constant (F := Ideal) S_ .bf16 0x0000#16))
            (concatenate S2 0 [⟨S1, broadcastInDim S1 ![] Facts₀.bcast_S_S1 (constantI S_ 32 0#32)⟩,
              ⟨S1, broadcastInDim S1 ![] Facts₀.bcast_S_S1 (constantI S_ 32 0#32)⟩] Facts₀.concatenates_S1_S1_S2_d0 : IVec S2 32)
            (truncf (F := Ideal) .bf16 (m ((c : Thread nD τ).loc main_arg0) : FVec Ideal S10000x128 .f32) Facts₀.bitsLt_bf16_f32))
          (concatenate S2 0 [⟨S1, broadcastInDim S1 ![] Facts₀.bcast_S_S1 (constantI S_ 32 0#32)⟩,
            ⟨S1, broadcastInDim S1 ![] Facts₀.bcast_S_S1 (constantI S_ 32 128#32)⟩] Facts₀.concatenates_S1_S1_S2_d0 : IVec S2 32)
          (broadcastInDim S10000 ![] Facts₀.bcast_S_S10000 (constant (F := Ideal) S_ .bf16 0x3F80#16)) := by
    dsimp only [Gen.V, Gen.hostOps0]; after_results <;> rfl
  rw [e]
  rw [scatter2_apply _ _ (by rw [startIdx_apply0]; rfl) (by rw [startIdx_apply1]; rfl),
    scatter1_apply _ _ (by rw [startIdx_apply0]; rfl) (by rw [startIdx_apply1]; rfl)]
  have hone : ∀ j : S10000.Idx, (broadcastInDim S10000 ![] Facts₀.bcast_S_S10000 (constant (F := Ideal) S_ .bf16 0x3F80#16) : S10000.Idx → EReal) j = 1 :=
    fun j => Ideal.ofBits_one_bf16
  have hzero : ∀ j : S10240x256.Idx, (broadcastInDim S10240x256 ![] Facts₀.bcast_S_S10240x256 (constant (F := Ideal) S_ .bf16 0x0000#16) : S10240x256.Idx → EReal) j = 0 :=
    fun j => Ideal.ofBits_zero_bf16
  by_cases hk : k.val < 10000
  · rw [dif_pos hk]
    by_cases hc : cc.val < 128
    · rw [dif_pos hc, dif_neg (by omega), dif_pos ⟨hk, hc⟩]
      rfl
    · rw [dif_neg hc]
      by_cases h8 : cc.val = 128
      · rw [if_pos h8, dif_pos ⟨hk, h8⟩]; exact hone _
      · rw [if_neg h8, dif_neg (by omega), dif_neg (by omega)]; exact hzero _
  · rw [dif_neg hk, dif_neg (by omega), dif_neg (by omega)]; exact hzero _

end Cert.Sage.HostXa

end
-- ==== Proof.PayFill.lean ====
/-
  The accumulator's step does not depend on the words past the adjacency array's last column.

  The last slab of the adjacency window overhangs its array: of its 1024 columns only the first 784 are fetched, and a
  staging buffer keeps, beyond them, whatever it held.  The step multiplies column `kk` of the slab by row
  `1024 · slab + kk` of the augmented features, and those rows, from row 10000 on, are zero.  So every product that
  reads a word beyond the array's end is that word times zero, and the step's value is the same whatever those
  words are — in particular the same as with the zero word there.
-/
import proofs.«109863_g78357383349035_cont_sun_c4_208_7_alg».proof.Proof.AccDefs
import proofs.«109863_g78357383349035_cont_sun_c4_208_7_alg».proof.Proof.PayIdx
import proofs.«109863_g78357383349035_cont_sun_c4_208_7_alg».proof.Proof.BlockReads
import proofs.«109863_g78357383349035_cont_sun_c4_208_7_alg».proof.Proof.HostXa

noncomputable section

open scoped BigOperators

namespace Cert.KernelIdeal.Sage

open Cert.KernelIdeal Cert.KernelIdeal.Gen Idealize.ShloMosaic Idealize.ShloMosaic.TcCoe Idealize.ShloMosaic.ValueIdx

variable (m : (ℓ : Loc nD τ sig) → Buf (Elt Ideal) ℓ)

/-- One term of the step's sum: the slab's word at column `kk` times the augmented features' row `1024 · slab + kk`.
    Inside the array the word is the array's, whatever the buffer held; beyond its end the feature row is zero. -/
theorem pay2_fill_term (c : Dev nD) (t : Fin cfg0.N) (d d' : S2000x1024.Idx → Elt Ideal .i32) (r : Fin 2000) (cc : Fin 256)
    (kk : Fin 1024) :
    ((((win0_0.fill (grid0.coords t) d (iblk m c 0 t)) (ix2 r kk)).toInt : ℝ) : EReal) * iblk m c 1 t (ix2 kk cc)
      = ((((win0_0.fill (grid0.coords t) d' (iblk m c 0 t)) (ix2 r kk)).toInt : ℝ) : EReal) * iblk m c 1 t (ix2 kk cc) := by
  rw [fill0_apply, fill0_apply]
  by_cases h : 1024 * (t.val % 10) + kk.val < 10000
  · rw [dif_pos h, dif_pos h]
  · rw [dif_neg h, dif_neg h, iblk1_apply, Cert.Sage.HostXa.V_xa, dif_neg h, mul_zero, mul_zero]

/-- The accumulator's step at point `t` from a staging buffer that held `d` before the fetch is the step from the
    slab padded with the zero word. -/
theorem pay2_fill (c : Dev nD) (t : Fin cfg0.N) (d : S2000x1024.Idx → Elt Ideal .i32) (p : Vec Ideal S2000x256 .f32) :
    k0_pay2 (F := Ideal) (win0_0.fill (grid0.coords t) d (iblk m c 0 t)) p (iblk m c 1 t)
      = k0_pay2 (F := Ideal) (adjblk m c t) p (iblk m c 1 t) := by
  funext j
  obtain ⟨r, cc, rfl⟩ : ∃ (r : Fin 2000) (cc : Fin 256), j = ix2 r cc := ⟨j 0, j 1, eq_ix2 j⟩
  refine (Cert.Sage.Pay.pay2_apply _ _ _ r cc).trans
    ((congrArg (p (ix2 r cc) + ·) ?_).trans (Cert.Sage.Pay.pay2_apply _ _ _ r cc).symm)
  exact Finset.sum_congr rfl fun kk _ => pay2_fill_term m c t d _ r cc kk

end Cert.KernelIdeal.Sage

end
-- ==== Proof.IdealData.lean ====
/-
  The proof data of the idealized kernel's run, with every buffer's contents named, and the body obligation.

  The invariant carried from point to point says what the accumulator holds: after the point `t` of slab `k` it is the
  point's payload of the adjacency slab, the accumulator the point before left (zero at `k = 0`) and the slab of
  augmented features. The output window's buffer holds the epilogue's block on a last slab and is untouched elsewhere.
  The adjacency window's staging buffer is only known on the part the (possibly cut) transfer fills: what lies past the
  array's last column is multiplied by rows of the augmented features that are zero, so the accumulator does not depend
  on it, and the window is handed back stated on the filled part only.
-/
import proofs.«109863_g78357383349035_cont_sun_c4_208_7_alg».proof.Proof.RunA
import proofs.«109863_g78357383349035_cont_sun_c4_208_7_alg».proof.Proof.RunB
import proofs.«109863_g78357383349035_cont_sun_c4_208_7_alg».proof.Proof.RunC
import proofs.«109863_g78357383349035_cont_sun_c4_208_7_alg».proof.Proof.Pieces
import proofs.«109863_g78357383349035_cont_sun_c4_208_7_alg».proof.Proof.AccDefs
import proofs.«109863_g78357383349035_cont_sun_c4_208_7_alg».proof.Proof.PayFill
import Idealize.ShloMosaic.Lib.Pipeline.Value

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-! ## The proof data -/

section IdealData

local notation "𝕄" => MT nD τ sig Unit (Elt Ideal) ℕ (UR sig nD τ) ℕ

variable (m : (ℓ : Loc nD τ sig) → Buf (Elt Ideal) ℓ) (ρ : Dev nD → PrngReg)

/-- The region invariant before position `n`: before the first point the class's (the accumulator at anything);
    afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data of the one pipeline on core `c`: the arrays as the region finds them; after the body at point `t` the
    adjacency window's buffer at its slab (on the part the transfer fills: the window is loose), the other inputs' at
    their blocks, the output's at the epilogue's block; the invariant carries the accumulator; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => adjblk m c t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = adjblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- The adjacency window is fetched at every point: its buffer holds the slab on the part the transfer fills and
    words nothing names elsewhere. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]; try rfl

theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

end IdealData

section IdealBody

local notation "𝕄" => MT nD τ sig Unit (Elt Ideal) ℕ (UR sig nD τ) ℕ

variable (m : (ℓ : Loc nD τ sig) → Buf (Elt Ideal) ℓ) (ρ : Dev nD → PrngReg)

/-! ## What the body obligation asks of each window's buffer after the body -/

/-- The adjacency window is loose: its buffer is handed back stated on the part the transfer fills. -/
theorem leaves_0_intro (c : Dev nD) (t : Fin cfg0.N) (d : S2000x1024.Idx → Elt Ideal .i32) :
    owns (c : Thread nD τ) (ms_0 t) fullShare (win0_0.fill (grid0.coords t) d (iblk m c 0 t)) ⊢ ((dats m 0 c).leaves 0 t : sProp 𝕄) := by
  unfold Dat.leaves; rw [liveAt_0 t]
  show _ ⊢ iprop(∃ d', owns (c : Thread nD τ) (ms_0 t) fullShare (win0_0.fill (grid0.coords t) d' (win0_0.cut (grid0.coords t) ((dats m 0 c).after 0 t))))
  rw [after_0]; unfold adjblk; rw [win0_0.cut_fill]
  iintro H; iexists d; iexact H

theorem leaves_1_intro (c : Dev nD) (t : Fin cfg0.N) :
    owns (c : Thread nD τ) (ms_1 t) fullShare (iblk m c 1 t) ⊢ ((dats m 0 c).leaves 1 t : sProp 𝕄) := by
  refine BIBase.Entails.trans ?_ ((dats m 0 c).leaves_intro 1 t)
  unfold Dat.leavesExact; rw [liveAt_1 t, after_1]
theorem leaves_2_intro (c : Dev nD) (t : Fin cfg0.N) :
    owns (c : Thread nD τ) (ms_2 t) fullShare (iblk m c 2 t) ⊢ ((dats m 0 c).leaves 2 t : sProp 𝕄) := by
  refine BIBase.Entails.trans ?_ ((dats m 0 c).leaves_intro 2 t)
  unfold Dat.leavesExact; rw [liveAt_2 t, after_2]
theorem leaves_3_intro (c : Dev nD) (t : Fin cfg0.N) :
    owns (c : Thread nD τ) (ms_3 t) fullShare (iblk m c 3 t) ⊢ ((dats m 0 c).leaves 3 t : sProp 𝕄) := by
  refine BIBase.Entails.trans ?_ ((dats m 0 c).leaves_intro 3 t)
  unfold Dat.leavesExact; rw [liveAt_3 t, after_3]
theorem leaves_4_intro (c : Dev nD) (t : Fin cfg0.N) :
    owns (c : Thread nD τ) (ms_4 t) fullShare (iblk m c 4 t) ⊢ ((dats m 0 c).leaves 4 t : sProp 𝕄) := by
  refine BIBase.Entails.trans ?_ ((dats m 0 c).leaves_intro 4 t)
  unfold Dat.leavesExact; rw [liveAt_4 t, after_4]

/-- Off a last slab the output window is idle: its buffer is handed back as it was found; -/
theorem leaves_5_idle (c : Dev nD) (t : Fin cfg0.N) (h : ¬condLast (grid0.coords t)) (d) :
    owns (c : Thread nD τ) (ms_5 t) fullShare ((dats m 0 c).before 5 t d) ⊢ ((dats m 0 c).leaves 5 t : sProp 𝕄) := by
  rw [(dats m 0 c).leaves_idle 5 t (idleAt_5 t h) (noFlush_5 t h)]
  iintro H; iexists d; iexact H

/-- on a last slab it holds the epilogue's block. -/
theorem leaves_5_live (c : Dev nD) (t : Fin cfg0.N) (h : condLast (grid0.coords t)) :
    owns (c : Thread nD τ) (ms_5 t) fullShare (outAt m c t) ⊢ ((dats m 0 c).leaves 5 t : sProp 𝕄) := by
  refine BIBase.Entails.trans ?_ ((dats m 0 c).leaves_intro 5 t)
  unfold Dat.leavesExact; rw [liveAt_5 t h, after_5]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 4800000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  by_cases h0 : t.val % 10 = 0
  · have h9 : ¬t.val % 10 = 9 := by omega
    have hc0 : condFirst (grid0.coords t) := (hcondFirst t).mpr h0
    have hc1 : ¬condLast (grid0.coords t) := fun h => h9 ((hcondLast t).mp h)
    rw [accAt_first m c t h0]
    -- the accumulator is found at anything: at the very first point the class invariant says so, later its named
    -- contents are forgotten
    have hΦ : (dats m 0 c).Φ t.castSucc ⊢ (iprop(iprop((∃ d, owns (c : Thread nD τ) scM fullShare d)) ∗ (∃ r, prngReg c r)) : sProp 𝕄) := by
      by_cases hz : t.val = 0
      · rw [PhiS_castSucc m c t, PhiS_zero m c _ _ hz, PhiA_eq]
      · rw [PhiS_castSucc m c t, PhiS_pos m c _ _ hz]
        iintro ⟨HS, Hg⟩
        isplitl [HS]
        · iexists _; iexact HS
        iexact Hg
    iintro ⟨HP, Ho, ⟨%d0, H0⟩, ⟨%d1, H1⟩, ⟨%d2, H2⟩, ⟨%d3, H3⟩, ⟨%d4, H4⟩, ⟨%d5, H5⟩⟩
    ihave HP' := hΦ $$ HP
    icases HP' with ⟨HS, Hg⟩
    iapply ((kernelRunA c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (win0_0.fill (grid0.coords t) d0 (iblk m c 0 t)) (iblk m c 1 t) (iblk m c 2 t) (iblk m c 3 t) (iblk m c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, ⟨%es, HS⟩⟩
    isplitl [HS Hg]
    · isplitl [HS]
      · rw [← pay2_fill m c t d0, ← soutA_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 _ _ (iblk m c 2 t) (iblk m c 3 t) (iblk m c 4 t)]
        unfold soutA owns; iexists _; isplitr
        swap; · iexact HS
        ipureintro; exact View.read_writes_of_cover _ _ _ _ _ (scoverA c _ _ _ _ _ _ _ _ _ _ _ _ _ _ _ _ _ _ _ _ _ _)
      iexact Hg
    isplitl [Ho]; · iexact Ho
    isplitl [H0]; · exact (leaves_0_intro m c t d0)
    isplitl [H1]; · exact (leaves_1_intro m c t)
    isplitl [H2]; · exact (leaves_2_intro m c t)
    isplitl [H3]; · exact (leaves_3_intro m c t)
    isplitl [H4]; · exact (leaves_4_intro m c t)
    exact leaves_5_idle m c t hc1 d5
  · have hz : t.val ≠ 0 := fun e => h0 (by rw [e])
    have hc0 : ¬condFirst (grid0.coords t) := fun h => h0 ((hcondFirst t).mp h)
    rw [accAt_next m c t h0, PhiS_castSucc m c t, PhiS_pos m c _ _ hz]
    by_cases h9 : t.val % 10 = 9
    · have hc1 : condLast (grid0.coords t) := (hcondLast t).mpr h9
      iintro ⟨⟨HS, Hg⟩, Ho, ⟨%d0, H0⟩, ⟨%d1, H1⟩, ⟨%d2, H2⟩, ⟨%d3, H3⟩, ⟨%d4, H4⟩, ⟨%d5, H5⟩⟩
      iapply ((kernelRunC c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (win0_0.fill (grid0.coords t) d0 (iblk m c 0 t)) (iblk m c 1 t) (iblk m c 2 t) (iblk m c 3 t) (iblk m c 4 t) (accAt m c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [HS Hg]
      · isplitl [HS]
        · rw [← pay2_fill m c t d0, ← soutC_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 _ _ (iblk m c 2 t) (iblk m c 3 t) (iblk m c 4 t)]
          unfold soutC owns; iexists _; isplitr
          swap; · iexact HS
          ipureintro; exact View.read_writes_of_cover _ _ _ _ _ (scoverC c _ _ _ _ _ _ _ _ _ _ _ _ _ _ _ _ _ _ _ _ _ _ _)
        iexact Hg
      isplitl [Ho]; · iexact Ho
      isplitl [H0]; · exact (leaves_0_intro m c t d0)
      isplitl [H1]; · exact (leaves_1_intro m c t)
      isplitl [H2]; · exact (leaves_2_intro m c t)
      isplitl [H3]; · exact (leaves_3_intro m c t)
      isplitl [H4]; · exact (leaves_4_intro m c t)
      have e : outAt m c t = outC c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (win0_0.fill (grid0.coords t) d0 (iblk m c 0 t)) (iblk m c 1 t) (iblk m c 2 t) (iblk m c 3 t) (iblk m c 4 t) (accAt m c (t.val - 1) (Nat.lt_of_le_of_lt (Nat.sub_le _ _) t.isLt)) := by
        unfold outAt; rw [accAt_next m c t h0, ← pay2_fill m c t d0, outC_eq]
      refine BIBase.Entails.trans ?_ (leaves_5_live m c t hc1)
      rw [e]
      unfold outC owns; iintro H; iexists _; isplitr
      swap; · iexact H
      ipureintro; exact View.read_writes_of_cover _ _ _ _ _ (coverC c _ _ _ _ _ _ _ _ _ _ _ _ _ _ _ _ _ _ _ _ _ _ _)
    · have hc1 : ¬condLast (grid0.coords t) := fun h => h9 ((hcondLast t).mp h)
      iintro ⟨⟨HS, Hg⟩, Ho, ⟨%d0, H0⟩, ⟨%d1, H1⟩, ⟨%d2, H2⟩, ⟨%d3, H3⟩, ⟨%d4, H4⟩, ⟨%d5, H5⟩⟩
      iapply ((kernelRunB c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 (win0_0.fill (grid0.coords t) d0 (iblk m c 0 t)) (iblk m c 1 t) (iblk m c 2 t) (iblk m c 3 t) (iblk m c 4 t) (accAt m c (t.val - 1) (Nat.lt_of_le_of_lt (Nat.sub_le _ _) t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [HS Hg]
      · isplitl [HS]
        · rw [← pay2_fill m c t d0, ← soutB_eq c (grid0.coords t) (ms_0 t) (hs_0 t) (ms_1 t) (hs_1 t) (ms_2 t) (hs_2 t) (ms_3 t) (hs_3 t) (ms_4 t) (hs_4 t) (ms_5 t) (hs_5 t) scM (Memref.isWhole_whole _) hc0 hc1 _ _ (iblk m c 2 t) (iblk m c 3 t) (iblk m c 4 t)]
          unfold soutB owns; iexists _; isplitr
          swap; · iexact HS
          ipureintro; exact View.read_writes_of_cover _ _ _ _ _ (scoverB c _ _ _ _ _ _ _ _ _ _ _ _ _ _ _ _ _ _ _ _ _ _ _)
        iexact Hg
      isplitl [Ho]; · iexact Ho
      isplitl [H0]; · exact (leaves_0_intro m c t d0)
      isplitl [H1]; · exact (leaves_1_intro m c t)
      isplitl [H2]; · exact (leaves_2_intro m c t)
      isplitl [H3]; · exact (leaves_3_intro m c t)
      isplitl [H4]; · exact (leaves_4_intro m c t)
      exact leaves_5_idle m c t hc1 d5

theorem body_obligation (c : Dev nD) : BodyObligationLoose (dats m 0 c) (defs₀ (F := Ideal)) Variants.none () Set.univ := fun t => by
  rw [bigSep_W0, bigSep_W0]
  exact sound_body m c t

end IdealBody

end Cert.KernelIdeal.Sage

end
-- ==== Proof.SlabSum.lean ====
/-
  A sum over ten consecutive slabs of 1024 naturals is the sum over the first 10240 naturals; when the summand
  vanishes from 10000 on, that is the sum over the first 10000.
-/
import Mathlib.Data.EReal.Basic
import Mathlib.Algebra.BigOperators.Fin
import Mathlib.Algebra.BigOperators.Intervals

noncomputable section

open scoped BigOperators

namespace Cert.Sage

/-- `n` consecutive slabs of `m` naturals are the first `m * n` naturals. -/
theorem sum_slabs_range (f : ℕ → EReal) (m n : ℕ) :
    ∑ kb ∈ Finset.range n, ∑ kk ∈ Finset.range m, f (m * kb + kk) = ∑ k ∈ Finset.range (m * n), f k := by
  induction n with
  | zero => simp
  | succ n ih =>
    rw [Finset.sum_range_succ, ih, Nat.mul_succ, Finset.sum_range_add]

/-- Ten slabs of 1024 cover the naturals below 10240; a summand that vanishes from 10000 on is summed over the
    first 10000 only. -/
theorem sum_slabs (f : ℕ → EReal) (hz : ∀ k, 10000 ≤ k → f k = 0) :
    ∑ kb ∈ Finset.range 10, ∑ kk : Fin 1024, f (1024 * kb + kk.val) = ∑ k : Fin 10000, f k.val := by
  have h1 : ∀ kb : ℕ, ∑ kk : Fin 1024, f (1024 * kb + kk.val) = ∑ kk ∈ Finset.range 1024, f (1024 * kb + kk) :=
    fun kb => Fin.sum_univ_eq_sum_range (fun kk => f (1024 * kb + kk)) 1024
  rw [Finset.sum_congr rfl (fun kb _ => h1 kb), sum_slabs_range f 1024 10,
    Fin.sum_univ_eq_sum_range (fun k => f k) 10000,
    show 1024 * 10 = 10000 + 240 from rfl, Finset.sum_range_add,
    Finset.sum_eq_zero (fun x _ => hz (10000 + x) (Nat.le_add_right _ _)), add_zero]

end Cert.Sage

end
-- ==== Proof.AccValue.lean ====
/-
  The accumulator and the output block in closed form.

  Fix a core and a node `i` (row `r` of row block `ib`, `i = 2000 · ib + r`). Write `g i cc n` for the product of the
  adjacency word `adj[i, n]`, read as a signed integer, with the augmented feature `xa[n, cc]`, and zero for `n` from
  10000 on (past the adjacency array's last column). The point at position `n` of the grid (row block `n / 10`, slab
  `n % 10`) adds to the accumulator's entry `(r, cc)` the sum of `g` over the slab's 1024 positions: inside the array
  the slab's word is the array's, and past its end the word is the zero word, whose product vanishes. So after slab
  `s` the entry is the sum over slabs `0 … s` (induction on the position: a first slab starts from the zero block, any
  other from what the position before left, in the same row block). After the last slab this is the sum over all of
  `n < 10240`, hence over `n < 10000`. The augmented features are the features on columns below 128 and the constant 1
  on column 128, so the accumulator's column `c' < 128` is the neighbours' feature sum and its column 128 the degree.
  The epilogue's payload of these, the weight, the row block's own features and the bias is then the layer's output.
-/
import proofs.«109863_g78357383349035_cont_sun_c4_208_7_alg».proof.Proof.AccDefs
import proofs.«109863_g78357383349035_cont_sun_c4_208_7_alg».proof.Proof.PayIdx
import proofs.«109863_g78357383349035_cont_sun_c4_208_7_alg».proof.Proof.BlockReads
import proofs.«109863_g78357383349035_cont_sun_c4_208_7_alg».proof.Proof.HostXa
import proofs.«109863_g78357383349035_cont_sun_c4_208_7_alg».proof.Proof.SlabSum
import proofs.«109863_g78357383349035_cont_sun_c4_208_7_alg».proof.Proof.Spec

set_option maxRecDepth 16384

noncomputable section

open scoped BigOperators

namespace Cert.KernelIdeal.Sage

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The summand: node `i`'s adjacency word at column `n`, read as an integer, times the augmented feature `(n, cc)`;
    zero past the adjacency array's last column. -/
def g (c : Dev nD) (i : Fin 10000) (cc : Fin 256) (n : ℕ) : EReal :=
  if h : n < 10000 then
    (((V m c main_arg1 (ix2 i (⟨n, h⟩ : Fin 10000))).toInt : ℝ) : EReal)
      * V m c main_v10 (ix2 (⟨n, by omega⟩ : Fin 10240) cc)
  else 0

theorem g_zero (c : Dev nD) (i : Fin 10000) (cc : Fin 256) (n : ℕ) (h : 10000 ≤ n) : g m c i cc n = 0 :=
  dif_neg (by omega)

/-- One term of a point's update is the summand at the slab's position. -/
theorem slab_term (c : Dev nD) (t : Fin cfg0.N) (r : Fin 2000) (cc : Fin 256) (i : Fin 10000)
    (hi : i.val = 2000 * (t.val / 10) + r.val) (j : ℕ) (hj : j = t.val % 10) (kk : Fin 1024) :
    (((adjblk m c t (ix2 r kk)).toInt : ℝ) : EReal) * iblk m c 1 t (ix2 kk cc) = g m c i cc (1024 * j + kk.val) := by
  subst hj
  obtain ⟨iv, hiv⟩ := i
  have hiv' : iv = 2000 * (t.val / 10) + r.val := hi
  subst hiv'
  have e0 : adjblk m c t (ix2 r kk) = _ := fill0_apply m c t (fun _ => (0#32 : BitVec 32)) r kk
  rw [e0, iblk1_apply m c t kk cc]
  unfold g
  by_cases h : 1024 * (t.val % 10) + kk.val < 10000
  · rw [dif_pos h, dif_pos h]
  · rw [dif_neg h, dif_neg h]
    have hz : ((0#32 : BitVec 32).toInt : ℝ) = 0 := by
      have : (0#32 : BitVec 32).toInt = 0 := by decide
      rw [this, Int.cast_zero]
    rw [hz, EReal.coe_zero, zero_mul]

/-- THE ACCUMULATOR AFTER POSITION `n`: the sum over the slabs so far of the row block. -/
theorem accAt_apply (c : Dev nD) (r : Fin 2000) (cc : Fin 256) (i : Fin 10000) :
    ∀ (n : ℕ) (hn : n < cfg0.N), i.val = 2000 * (n / 10) + r.val →
      accAt m c n hn (ix2 r cc) = ∑ j ∈ Finset.range (n % 10 + 1), ∑ kk : Fin 1024, g m c i cc (1024 * j + kk.val) := by
  intro n
  induction n with
  | zero =>
    intro hn hi
    rw [accAt_first m c ⟨0, hn⟩ rfl, Cert.Sage.Pay.pay2_apply, Cert.Sage.Pay.pay1_apply, zero_add]
    rw [show (0 % 10 + 1 : ℕ) = 1 from rfl, Finset.sum_range_one]
    exact Finset.sum_congr rfl fun kk _ => slab_term m c ⟨0, hn⟩ r cc i hi 0 rfl kk
  | succ n ih =>
    intro hn hi
    by_cases h0 : (n + 1) % 10 = 0
    · rw [accAt_first m c ⟨n + 1, hn⟩ h0, Cert.Sage.Pay.pay2_apply, Cert.Sage.Pay.pay1_apply, zero_add]
      rw [h0, show (0 + 1 : ℕ) = 1 from rfl, Finset.sum_range_one]
      exact Finset.sum_congr rfl fun kk _ => slab_term m c ⟨n + 1, hn⟩ r cc i hi 0 h0.symm kk
    · have hprev : accAt m c ((⟨n + 1, hn⟩ : Fin cfg0.N).val - 1)
            (Nat.lt_of_le_of_lt (Nat.sub_le _ _) (⟨n + 1, hn⟩ : Fin cfg0.N).isLt) (ix2 r cc)
          = ∑ j ∈ Finset.range (n % 10 + 1), ∑ kk : Fin 1024, g m c i cc (1024 * j + kk.val) :=
        ih (Nat.lt_of_succ_lt hn) (by omega)
      have e : (n + 1) % 10 = n % 10 + 1 := by omega
      rw [accAt_next m c ⟨n + 1, hn⟩ h0, Cert.Sage.Pay.pay2_apply, hprev, e, Finset.sum_range_succ (n := n % 10 + 1)]
      refine congrArg (_ + ·) ?_
      exact Finset.sum_congr rfl fun kk _ => slab_term m c ⟨n + 1, hn⟩ r cc i hi (n % 10 + 1) e.symm kk

/-- After the last slab the accumulator's entry is the sum over the adjacency array's whole row. -/
theorem accAt_last (c : Dev nD) (t : Fin cfg0.N) (h9 : t.val % 10 = 9) (r : Fin 2000) (cc : Fin 256) (i : Fin 10000)
    (hi : i.val = 2000 * (t.val / 10) + r.val) :
    accAt m c t.val t.isLt (ix2 r cc) = ∑ k : Fin 10000, g m c i cc k.val := by
  rw [accAt_apply m c r cc i t.val t.isLt hi, h9]
  exact Cert.Sage.sum_slabs (g m c i cc) (g_zero m c i cc)

/-- On a feature column the summand is the adjacency entry times the neighbour's feature; -/
theorem g_lo (c : Dev nD) (i k : Fin 10000) (c' : Fin 128) :
    g m c i (Cert.Sage.lo c') k.val
      = Cert.Sage.aR (m ((c : Thread nD τ).loc main_arg1)) i k * m ((c : Thread nD τ).loc main_arg0) (ix2 k c') := by
  unfold g
  rw [dif_pos k.isLt]
  refine congrArg₂ (· * ·) ?_ ?_
  · rw [V_main_arg1 m c]; rfl
  · refine (Cert.Sage.HostXa.V_xa m c (⟨k.val, by have := k.isLt; omega⟩ : Fin 10240) (Cert.Sage.lo c')).trans ?_
    rw [dif_pos (show k.val < 10000 from k.isLt), dif_pos (show (Cert.Sage.lo c').val < 128 from c'.isLt)]
    rfl

/-- on column 128 it is the adjacency entry itself. -/
theorem g_deg (c : Dev nD) (i k : Fin 10000) :
    g m c i (⟨128, by omega⟩ : Fin 256) k.val = Cert.Sage.aR (m ((c : Thread nD τ).loc main_arg1)) i k := by
  unfold g
  rw [dif_pos k.isLt]
  refine (congrArg₂ (· * ·) ?_ ?_).trans (mul_one _)
  · rw [V_main_arg1 m c]; rfl
  · refine (Cert.Sage.HostXa.V_xa m c (⟨k.val, by have := k.isLt; omega⟩ : Fin 10240) (⟨128, by omega⟩ : Fin 256)).trans ?_
    rw [dif_pos (show k.val < 10000 from k.isLt), dif_neg (show ¬(128 : ℕ) < 128 by omega), if_pos rfl]

/-- The output block at a last slab, at the node `i` that row `r` of the row block is. -/
theorem outAt_apply_node (c : Dev nD) (t : Fin cfg0.N) (h9 : t.val % 10 = 9) (r : Fin 2000) (o : Fin 128) (i : Fin 10000)
    (hidx : i.val = 2000 * (t.val / 10) + r.val) :
    outAt m c t (ix2 r o)
      = Cert.Sage.Gio (m ((c : Thread nD τ).loc main_arg0)) (m ((c : Thread nD τ).loc main_arg1))
          (m ((c : Thread nD τ).loc main_arg2)) (m ((c : Thread nD τ).loc main_arg3)) i o := by
  unfold outAt
  rw [Cert.Sage.Pay.pay3_apply]
  unfold Cert.Sage.Gio
  refine congrArg₂ (· + ·) (congrArg₂ (· + ·) (Finset.sum_congr rfl fun c' _ => ?_) (Finset.sum_congr rfl fun c' _ => ?_)) ?_
  · refine congrArg₂ (· * ·) (congrArg₂ Ideal.div ?_ ?_) ?_
    · rw [accAt_last m c t h9 r (Cert.Sage.lo c') i hidx]
      exact Finset.sum_congr rfl fun k _ => g_lo m c i k c'
    · rw [accAt_last m c t h9 r (⟨128, by omega⟩ : Fin 256) i hidx]
      exact Finset.sum_congr rfl fun k _ => g_deg m c i k
    · rw [iblk3_apply m c t (Cert.Sage.lo c') o, V_main_arg2 m c]
  · obtain ⟨iv, hiv⟩ := i
    have hiv' : iv = 2000 * (t.val / 10) + r.val := hidx
    subst hiv'
    refine congrArg₂ (· * ·) ?_ ?_
    · rw [iblk2_apply m c t r c', V_main_arg0 m c]
    · rw [iblk3_apply m c t (Cert.Sage.hi c') o, V_main_arg2 m c]
  · rw [iblk4_apply m c t o]
    exact Cert.Sage.HostXa.V_bias m c o

/-- THE OUTPUT BLOCK at a last slab is the layer's output on the row block's nodes. -/
theorem outAt_apply (c : Dev nD) (t : Fin cfg0.N) (h9 : t.val % 10 = 9) (r : Fin 2000) (o : Fin 128) :
    outAt m c t (ix2 r o)
      = Cert.Sage.Gio (m ((c : Thread nD τ).loc main_arg0)) (m ((c : Thread nD τ).loc main_arg1))
          (m ((c : Thread nD τ).loc main_arg2)) (m ((c : Thread nD τ).loc main_arg3))
          (⟨2000 * (t.val / 10) + r.val, by have := point_lt t; omega⟩ : Fin 10000) o :=
  outAt_apply_node m c t h9 r o _ rfl

end Cert.KernelIdeal.Sage

end
-- ==== Proof.FinalArr.lean ====
/-
  The output array after the run, from the output window's blocks.

  The output window writes its block back at the last slab's point of each row block, and those five blocks tile the
  array's 10000 rows. So when, at each of those points, the body leaves in the staging buffer the layer's output for the
  block's rows, the array ends holding the layer's output.
-/
import proofs.«109863_g78357383349035_cont_sun_c4_208_7_alg».proof.Proof.BlockReads
import proofs.«109863_g78357383349035_cont_sun_c4_208_7_alg».proof.Proof.Spec
import proofs.«109863_g78357383349035_cont_sun_c4_208_7_alg».proof.Proof.Gen.KernelIdeal.Frame
import proofs.«109863_g78357383349035_cont_sun_c4_208_7_alg».proof.Proof.Gen.KernelIdeal.Points
import Idealize.ShloMosaic.Lib.Pipeline.Value
import Idealize.ShloMosaic.Lib.ValueIdx

noncomputable section

namespace Cert.KernelIdeal.Sage

open Cert.KernelIdeal Cert.KernelIdeal.Gen Idealize.ShloMosaic Idealize.ShloMosaic.TcCoe Idealize.ShloMosaic.ValueIdx
open Idealize.SL Idealize.SL.RA Idealize.SL.BI
open Idealize.SL.Sem
open Idealize.ShloMosaic.Rounds
open Idealize.ShloMosaic.Pipeline (Dat Cfg Window)

/-- The output array ends holding the layer's output, for any proof data whose body leaves, at each point that writes
    the output block back, the layer's output for the block's rows. -/
theorem final_of_after (c : Dev nD) (dat : Pipeline.Dat τ (Elt Ideal) Unit ℕ (UR sig nD τ) ℕ cfg0 c)
    (x : FVec Ideal Cert.Sage.SX .f32) (adj : IVec Cert.Sage.SA 32) (W : FVec Ideal Cert.Sage.SW .f32)
    (b : FVec Ideal Cert.Sage.SB .f32)
    (hafter : ∀ t : Fin cfg0.N, t.val % 10 = 9 → ∀ (r : Fin 2000) (o : Fin 128),
      dat.after 5 t (ix2 r o)
        = Cert.Sage.Gio x adj W b (⟨2000 * (t.val / 10) + r.val, by have := point_lt t; omega⟩ : Fin 10000) o) :
    dat.arrAt 5 cfg0.N = Cert.Sage.G x adj W b := by
  refine dat.arrAt_eq_of_cover 5 (Cert.Sage.G x adj W b) (fun t hf => ?_) (cover5 c)
  have h9 : t.val % 10 = 9 := (flush0_5 t).mp hf
  refine funext fun (y : S2000x128.Idx) => ?_
  obtain ⟨r, o, rfl⟩ : ∃ (r : Fin 2000) (o : Fin 128), y = ix2 r o := ⟨y 0, y 1, eq_ix2 y⟩
  show dat.after 5 t (ix2 r o) = ((cfg0.win 5).blk t).view.read (Elt Ideal) (Cert.Sage.G x adj W b) (ix2 r o)
  refine (hafter t h9 r o).trans ?_
  exact ((blk5_read (F := Ideal) c t (Cert.Sage.G x adj W b) r o).trans (Cert.Sage.G_apply x adj W b _ o)).symm

end Cert.KernelIdeal.Sage

end
-- ==== Proof.IdealRun.lean ====
/-
  The idealized kernel's run and its value.

  From the proof data (the accumulator carried from point to point, the output block on each last slab) the run ends
  with every array of the pipeline at what the data compute. The output array is written back in five blocks of 2000
  rows, one per row block, each on its last slab; each block is the layer's function `G` of the argument arrays read
  through the block, and the five blocks cover the array: so the result array is `G`, and the arguments are unchanged.
-/
import proofs.«109863_g78357383349035_cont_sun_c4_208_7_alg».proof.Proof.IdealData
import proofs.«109863_g78357383349035_cont_sun_c4_208_7_alg».proof.Proof.AccValue
import proofs.«109863_g78357383349035_cont_sun_c4_208_7_alg».proof.Proof.FinalArr
import proofs.«109863_g78357383349035_cont_sun_c4_208_7_alg».proof.Proof.Spec

set_option maxRecDepth 16384

noncomputable section

namespace Cert.KernelIdeal.Sage

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section IdealRunMain

local notation "𝕄" => MT nD τ sig Unit (Elt Ideal) ℕ (UR sig nD τ) ℕ

variable (m : (ℓ : Loc nD τ sig) → Buf (Elt Ideal) ℓ) (ρ : Dev nD → PrngReg)

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the class's back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨HS, Hg⟩
  isplitl [HS]
  · iexists _; iexact HS
  iexact Hg

set_option backward.isDefEq.respectTransparency.types false in
/-- Every weakly fair execution of the idealized program terminates, and every final state has each array of the
    pipeline at what the proof data computes and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-- The output array after the run is the layer's function of the argument arrays. -/
theorem final (c : Dev nD) :
    (dats m 0 c).arrAt 5 cfg0.N
      = Cert.Sage.G (m ((c : Thread nD τ).loc main_arg0)) (m ((c : Thread nD τ).loc main_arg1)) (m ((c : Thread nD τ).loc main_arg2)) (m ((c : Thread nD τ).loc main_arg3)) :=
  final_of_after c (dats m 0 c) _ _ _ _ (fun t h9 r o => by rw [after_5]; exact outAt_apply m c t h9 r o)

/-- THE RUN WITH ITS VALUE: the idealized kernel terminates with the result array at the layer's function of the
    arguments and the arguments unchanged. -/
theorem run_value :
    θ_run (defs (F := Ideal)) (onTc (τ := τ) (main (F := Ideal))) ⟨m, fun _ => 0, ρ⟩ (fun r => ∀ c : Dev nD,
      r.2.mem ((c.tc : Thread nD τ).loc main_v12)
          = Cert.Sage.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end IdealRunMain

end Cert.KernelIdeal.Sage

end
-- ==== Proof.RefG.lean ====
/-
  The reference computes the specification.

  The reference masks the adjacency array (`adj == 1`, converted to a float), sums each row of the mask (the degree),
  multiplies the mask into the features and divides by the degree (the neighbour mean), lays the mean and the node's own
  features side by side (256 columns), multiplies by the weight and adds the bias. Read at node `i`, feature `o`:

  * when every adjacency word is 0 or 1, the mask's entry `(i, k)` — the one-bit test `adj[i,k] == 1` read as an
    unsigned integer — is the adjacency word itself read as a signed integer (0 ↦ 0, 1 ↦ 1);
  * the row sum starts from the zero word, which is the real 0, and `0 + s = s`;
  * the division is the extended reals' `Ideal.div`, left as it is;
  * column `k < 128` of the side-by-side array is column `k` of the mean, column `128 + c` is column `c` of the
    features, so the one dot product over 256 columns is the sum over the mean's 128 columns against the weight's upper
    rows plus the sum over the features' 128 columns against its lower rows (a sum over `Fin (128 + 128)` split in two;
    no finiteness is needed, the extended reals being a commutative additive monoid).
-/
import proofs.«109863_g78357383349035_cont_sun_c4_208_7_alg».proof.Proof.Spec
import proofs.«109863_g78357383349035_cont_sun_c4_208_7_alg».proof.Proof.Gen.ReferenceIdeal.Read

noncomputable section

open scoped BigOperators

namespace Cert.Sage.RefG

open Idealize.ShloMosaic Idealize.ShloMosaic.ValueIdx
open Cert.ReferenceIdeal Cert.ReferenceIdeal.Gen Cert.ReferenceIdeal.Read

/-! ## The mask's entry -/

/-- The test `w == 1` of a word that is 0 or 1, read as an unsigned integer, is the word read as a signed integer. -/
theorem mask_word (w : BitVec 32) (h : w = 0#32 ∨ w = 1#32) :
    FloatOps.uitofp (F := Ideal) .f32 (IntOp.cmpi .eq w 1#32) = (((w.toInt : ℝ)) : EReal) := by
  rcases h with rfl | rfl
  · have h1 : (IntOp.cmpi .eq (0#32 : BitVec 32) 1#32).toNat = 0 := by decide
    have h2 : (0#32 : BitVec 32).toInt = 0 := by decide
    show ((((IntOp.cmpi .eq (0#32 : BitVec 32) 1#32).toNat : ℕ) : ℝ) : EReal) = _
    rw [h1, h2, Nat.cast_zero, Int.cast_zero]
  · have h1 : (IntOp.cmpi .eq (1#32 : BitVec 32) 1#32).toNat = 1 := by decide
    have h2 : (1#32 : BitVec 32).toInt = 1 := by decide
    show ((((IntOp.cmpi .eq (1#32 : BitVec 32) 1#32).toNat : ℕ) : ℝ) : EReal) = _
    rw [h1, h2, Nat.cast_one, Int.cast_one]

section
variable (x0 : (⟨S10000x128, .f32⟩ : BufTy).Contents (Elt Ideal))
  (x1 : (⟨S10000x10000, .i32⟩ : BufTy).Contents (Elt Ideal))
  (x2 : (⟨S256x128, .f32⟩ : BufTy).Contents (Elt Ideal))
  (x3 : (⟨S128, .f32⟩ : BufTy).Contents (Elt Ideal))

/-- The mask at `(i, k)` is the adjacency word read as an integer. -/
theorem mask_at (hadj : ∀ i k : Fin 10000, x1 (ix2 i k) = 0#32 ∨ x1 (ix2 i k) = 1#32) (i k : Fin 10000) :
    val_main_v2 (F := Ideal) x1 (ix2 i k) = aR x1 i k := by
  rw [val_main_v2_apply, val_main_v1_apply, val_main_v0_apply, val_main_c_apply]
  exact mask_word _ (hadj i k)

/-- The mask's row sum at node `i` is the degree. -/
theorem rowsum_at (hadj : ∀ i k : Fin 10000, x1 (ix2 i k) = 0#32 ∨ x1 (ix2 i k) = 1#32) (i : Fin 10000) :
    val_main_v3 (F := Ideal) x1 (ix1 i) = deg x1 i := by
  rw [val_main_v3_apply, val_main_cst_apply, Ideal.ofBits_def, Ideal.ofBits_zero_f32, zero_add]
  refine Finset.sum_congr rfl fun k _ => ?_
  have e : idx_main_v3 (ix1 i) k = ix2 i k :=
    funext fun a => by match a with | ⟨0, _⟩ => rfl | ⟨1, _⟩ => rfl
  rw [e]
  exact mask_at x1 hadj i k

/-- The degree broadcast along the features. -/
theorem degcol_at (hadj : ∀ i k : Fin 10000, x1 (ix2 i k) = 0#32 ∨ x1 (ix2 i k) = 1#32) (i : Fin 10000) (c : Fin 128) :
    val_main_v6 (F := Ideal) x1 (ix2 i c) = deg x1 i := by
  rw [val_main_v6_apply, val_main_v4_apply]
  have e : idx_main_v4 (idx_main_v6 (ix2 i c)) = ix1 i :=
    funext fun a => by match a with | ⟨0, _⟩ => rfl
  rw [e]
  exact rowsum_at x1 hadj i

/-- The mask times the features at `(i, c)` is the neighbours' feature sum. -/
theorem nsum_at (hadj : ∀ i k : Fin 10000, x1 (ix2 i k) = 0#32 ∨ x1 (ix2 i k) = 1#32) (i : Fin 10000) (c : Fin 128) :
    val_main_v5 (F := Ideal) x0 x1 (ix2 i c) = nsum x0 x1 i c := by
  rw [val_main_v5_apply]
  refine Finset.sum_congr rfl fun k _ => ?_
  have el : lidx_main_v5 (ix2 i c) k = ix2 i k :=
    funext fun a => by match a with | ⟨0, _⟩ => rfl | ⟨1, _⟩ => rfl
  have er : ridx_main_v5 (ix2 i c) k = ix2 k c :=
    funext fun a => by match a with | ⟨0, _⟩ => rfl | ⟨1, _⟩ => rfl
  rw [el, er, mask_at x1 hadj i k]

/-- The neighbour mean at `(i, c)`. -/
theorem mean_at (hadj : ∀ i k : Fin 10000, x1 (ix2 i k) = 0#32 ∨ x1 (ix2 i k) = 1#32) (i : Fin 10000) (c : Fin 128) :
    val_main_v7 (F := Ideal) x0 x1 (ix2 i c) = Ideal.div (nsum x0 x1 i c) (deg x1 i) := by
  rw [val_main_v7_apply, Ideal.hostDivf_def, nsum_at x0 x1 hadj i c, degcol_at x1 hadj i c]

/-! ## The side-by-side array -/

/-- Column `c` of the left half is column `c` of the mean. -/
theorem cat_lo (i : Fin 10000) (c : Fin 128) :
    val_main_v8 (F := Ideal) x0 x1 (ix2 i (lo c)) = val_main_v7 (F := Ideal) x0 x1 (ix2 i c) := by
  unfold val_main_v8
  generalize val_main_v7 (F := Ideal) x0 x1 = y
  exact concatenate_pair_apply_left 1 y x0 concatenates_S10000x128_S10000x128_S10000x256_d1 (ix2 i (lo c)) rfl (ix2 i c)
    (fun b => by match b with | ⟨0, _⟩ => rfl | ⟨1, _⟩ => rfl)

/-- Column `128 + c` of the side-by-side array is column `c` of the features. -/
theorem cat_hi (i : Fin 10000) (c : Fin 128) :
    val_main_v8 (F := Ideal) x0 x1 (ix2 i (hi c)) = x0 (ix2 i c) := by
  unfold val_main_v8
  generalize val_main_v7 (F := Ideal) x0 x1 = y
  exact concatenate_pair_apply_right 1 y x0 concatenates_S10000x128_S10000x128_S10000x256_d1 (ix2 i (hi c)) rfl rfl (ix2 i c)
    (fun b hb => by match b with | ⟨0, _⟩ => rfl | ⟨1, _⟩ => exact absurd rfl hb)
    (by show c.val + 128 = 128 + c.val; omega)

/-- A sum over 256 columns is the sum over the first 128 plus the sum over the last 128. -/
theorem sum_halves (f : Fin 256 → EReal) :
    ∑ k : Fin 256, f k = ∑ c : Fin 128, f (lo c) + ∑ c : Fin 128, f (hi c) :=
  Fin.sum_univ_add (a := 128) (b := 128) f

/-- The product with the weight at `(i, o)`, split by halves. -/
theorem prod_at (hadj : ∀ i k : Fin 10000, x1 (ix2 i k) = 0#32 ∨ x1 (ix2 i k) = 1#32) (i : Fin 10000) (o : Fin 128) :
    val_main_v9 (F := Ideal) x0 x1 x2 (ix2 i o)
      = ∑ c : Fin 128, Ideal.div (nsum x0 x1 i c) (deg x1 i) * x2 (ix2 (lo c) o)
        + ∑ c : Fin 128, x0 (ix2 i c) * x2 (ix2 (hi c) o) := by
  rw [val_main_v9_apply]
  have el : ∀ k : Fin 256, lidx_main_v9 (ix2 i o) k = ix2 i k := fun k =>
    funext fun a => by match a with | ⟨0, _⟩ => rfl | ⟨1, _⟩ => rfl
  have er : ∀ k : Fin 256, ridx_main_v9 (ix2 i o) k = ix2 k o := fun k =>
    funext fun a => by match a with | ⟨0, _⟩ => rfl | ⟨1, _⟩ => rfl
  simp only [el, er]
  rw [sum_halves]
  refine congrArg₂ (· + ·) (Finset.sum_congr rfl fun c _ => ?_) (Finset.sum_congr rfl fun c _ => ?_)
  · rw [cat_lo, mean_at x0 x1 hadj i c]
  · rw [cat_hi]

/-- The bias broadcast down the rows. -/
theorem bias_at (i : Fin 10000) (o : Fin 128) : val_main_v11 (F := Ideal) x3 (ix2 i o) = x3 (ix1 o) := by
  rw [val_main_v11_apply, val_main_v10_apply]
  exact congrArg x3 (funext fun a => by match a with | ⟨0, _⟩ => rfl)

/-- Under "every adjacency word is 0 or 1" the reference's result is the specification. -/
theorem ref_eq_G (hadj : ∀ i k : Fin 10000, x1 (ix2 i k) = 0#32 ∨ x1 (ix2 i k) = 1#32) :
    Cert.ReferenceIdeal.Read.val_main_v12 (F := Ideal) x0 x1 x2 x3 = Cert.Sage.G x0 x1 x2 x3 := by
  funext j
  obtain ⟨i, o, rfl⟩ : ∃ (i : Fin 10000) (o : Fin 128), j = ix2 i o := ⟨j 0, j 1, eq_ix2 j⟩
  rw [G_apply, val_main_v12_apply, Ideal.addf_def, prod_at x0 x1 x2 hadj i o, bias_at x3 i o]
  rfl

end

end Cert.Sage.RefG

end
-- ==== Proof.PreAdj.lean ====
/-
  The precondition, decoded at the adjacency array.

  The precondition's last conjunct is "every adjacency word is 0 or 1": an all-reduction by `and` of the array whose
  entry (i, k) is `(adj[i,k] == 0) or (adj[i,k] == 1)`. The whole predicate being 1 makes each conjunct 1; an
  all-reduction by `and` that is 1 met only 1s; a one-bit `or` that is 1 has an operand that is 1; and a word comparison
  for equality that is 1 says the two words are equal.
-/
import proofs.«109863_g78357383349035_cont_sun_c4_208_7_alg».proof.Pre_finite_inputs
import Idealize.ShloMosaic.Lib.ValueIdx
import Idealize.ShloMosaic.Lib.ReduceAll

noncomputable section

namespace Cert.Sage.PreAdj

open Idealize.ShloMosaic Idealize.ShloMosaic.ValueIdx

/-- The scalar shape has one index. -/
instance : Subsingleton Cert.Pre_finite_inputs.S_.Idx := ⟨fun a b => funext fun d => d.elim0⟩

/-- Under the precondition every adjacency word is the word 0 or the word 1. -/
theorem adj_of_pre [Cert.Pre_finite_inputs.Facts] (x0 : FVec Ideal Cert.Pre_finite_inputs.S10000x128 .f32)
    (x1 : IVec Cert.Pre_finite_inputs.S10000x10000 32) (x2 : FVec Ideal Cert.Pre_finite_inputs.S256x128 .f32)
    (x3 : FVec Ideal Cert.Pre_finite_inputs.S128 .f32)
    (h : Cert.Pre_finite_inputs.fn (F := Ideal) x0 x1 x2 x3 = fun _ => 1#1) :
    ∀ i k : Fin 10000, x1 (ix2 i k) = 0#32 ∨ x1 (ix2 i k) = 1#32 := by
  intro i k
  have e := congrFun h ValueIdx.ix0
  dsimp only [Cert.Pre_finite_inputs.fn, Cert.Pre_finite_inputs.fn_part1] at e
  -- the last conjunct: the all-reduction over the adjacency array
  have e2 := (IntOp.andi_eq_one.1 e).2
  have e3 := Host.reduce_andi_all _ _ _ _ _ e2 (ix2 i k)
  -- its entry at (i, k): an `or` of two equality tests against the broadcast words 0 and 1
  rcases IntOp.ori_eq_one.1 e3 with h0 | h1
  · exact Or.inl (IntOp.cmpi_eq.1 h0)
  · exact Or.inr (IntOp.cmpi_eq.1 h1)

end Cert.Sage.PreAdj

end
-- ==== Proof.lean ====
/-
  The certificate of a GraphSAGE layer with mean aggregation over a graph of 10000 nodes, 128 features a node.

  For node i and output feature o the layer's value is
      out[i, o] = Σ_{c<128} (nsum[i, c] / deg[i]) · W[c, o]  +  Σ_{c<128} x[i, c] · W[128 + c, o]  +  b[o],
  where nsum[i, c] = Σ_k a[i, k] · x[k, c] is the sum of the neighbours' features, deg[i] = Σ_k a[i, k] the number of
  neighbours, and a[i, k] the adjacency word read as an integer: the function `Cert.Sage.G` of the four argument
  arrays (Proof/Spec.lean). The quotient is the extended reals' `Ideal.div`, whatever the degree.

  What is claimed. Each of the three programs runs to its end with nothing faulting and leaves its argument arrays as
  they were (the three frames). The ideal pass rewrote no operation, so the idealized kernel is the kernel's own text
  read over the extended reals (`preserves` is `True`). And at the ideal instance, from memories that agree on the
  arguments and satisfy the precondition — every adjacency word is 0 or 1 —, the idealized kernel and the idealized
  reference both end with `G` of the arguments in their result array (`algebraic`).

  Why both are `G`. The kernel pads x to xa = [x | 1 | 0], 10240 × 256 and zero below row 10000, and sums over ten
  column slabs of 1024 the products (adjacency slab) · (xa slab): columns below 128 of the sum are nsum and column 128
  is deg. The adjacency array has 10000 columns, so the tenth slab overhangs it by 240 columns; these meet the zero rows
  of xa and add nothing, whatever they hold. After the tenth slab the kernel stores
  (acc[:, :128] / acc[:, 128]) · W[:128] + x · W[128:] + b. The reference masks the adjacency by (a == 1) — the word
  itself when the word is 0 or 1 —, forms mean = (mask · x) / rowsum(mask) and multiplies [mean | x] by W: a sum over
  256 columns, which splits into the two sums over 128 above.
-/
import proofs.«109863_g78357383349035_cont_sun_c4_208_7_alg».proof.Defs
import proofs.«109863_g78357383349035_cont_sun_c4_208_7_alg».proof.Proof.Gen.Kernel
import proofs.«109863_g78357383349035_cont_sun_c4_208_7_alg».proof.Proof.Gen.Kernel.Skeleton
import proofs.«109863_g78357383349035_cont_sun_c4_208_7_alg».proof.Proof.Gen.Kernel.Launch
import proofs.«109863_g78357383349035_cont_sun_c4_208_7_alg».proof.Proof.Gen.Kernel.Points
import proofs.«109863_g78357383349035_cont_sun_c4_208_7_alg».proof.Proof.Gen.Kernel.Frame
import proofs.«109863_g78357383349035_cont_sun_c4_208_7_alg».proof.Proof.Gen.KernelIdeal
import proofs.«109863_g78357383349035_cont_sun_c4_208_7_alg».proof.Proof.Gen.KernelIdeal.Skeleton
import proofs.«109863_g78357383349035_cont_sun_c4_208_7_alg».proof.Proof.Gen.KernelIdeal.Launch
import proofs.«109863_g78357383349035_cont_sun_c4_208_7_alg».proof.Proof.Gen.KernelIdeal.Points
import proofs.«109863_g78357383349035_cont_sun_c4_208_7_alg».proof.Proof.Gen.KernelIdeal.Frame
import proofs.«109863_g78357383349035_cont_sun_c4_208_7_alg».proof.Proof.Gen.ReferenceIdeal
import proofs.«109863_g78357383349035_cont_sun_c4_208_7_alg».proof.Proof.Gen.ReferenceIdeal.Run
import proofs.«109863_g78357383349035_cont_sun_c4_208_7_alg».proof.Proof.Gen.ReferenceIdeal.Read
import proofs.«109863_g78357383349035_cont_sun_c4_208_7_alg».proof.Proof.Gen.Pre_finite_inputs
import proofs.«109863_g78357383349035_cont_sun_c4_208_7_alg».proof.Proof.Spec
import proofs.«109863_g78357383349035_cont_sun_c4_208_7_alg».proof.Proof.KernelFrame
import proofs.«109863_g78357383349035_cont_sun_c4_208_7_alg».proof.Proof.IdealRun
import proofs.«109863_g78357383349035_cont_sun_c4_208_7_alg».proof.Proof.RefG
import proofs.«109863_g78357383349035_cont_sun_c4_208_7_alg».proof.Proof.PreAdj
import Idealize.ShloMosaic.Adequacy
import Idealize.ShloMosaic.Init

noncomputable section

namespace Cert.Proof

open Idealize.ShloMosaic Idealize.ShloMosaic.TcCoe Idealize.SL.Sem Idealize.ShloMosaic.ValueIdx

/-! ## The frames -/

/-- The kernel as printed runs and leaves its arguments unchanged. -/
theorem frame_k : Cert.frame_Kernel := fun m ρ _ => Cert.Sage.KernelFrame.frame (F := Bits) m ρ

/-- The idealized kernel runs and leaves its arguments unchanged: its run with the result dropped. -/
theorem frame_ki : Cert.frame_KernelIdeal := fun m ρ _ =>
  (θ_run Cert.KernelIdeal.defs _ _).mono (fun _ h c => (h c).2) (Cert.KernelIdeal.Sage.run_value m ρ)

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-! ## The idealization and the value -/

/-- The ideal pass rewrote nothing: there is no rewrite to justify. -/
theorem preserves : Cert.preserves_Kernel_KernelIdeal := trivial

/-- At the ideal instance both programs end with `G` of the arguments: the kernel by its run, the reference because
    its result term is `G` once every adjacency word is 0 or 1, which the precondition says. -/
theorem algebraic : Cert.algebraic_KernelIdeal_ReferenceIdeal := by
  intro m ρ m' ρ' hpre hagree
  refine ⟨fun c => Cert.Sage.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Sage.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v12_eq (F := Ideal) _ _ _ _).trans
    (Cert.Sage.RefG.ref_eq_G _ _ _ _ (Cert.Sage.PreAdj.adj_of_pre _ _ _ _ (hpre c)))

/-! ## The certificate -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
